-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v44)) (v1 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_v46) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S512x256 : Shape := ⟨2, ![512, 256]⟩
abbrev S256 : Shape := ⟨1, ![256]⟩
abbrev S256x1 : Shape := ⟨2, ![256, 1]⟩
abbrev S1 : Shape := ⟨1, ![1]⟩
abbrev S2x262144 : Shape := ⟨2, ![2, 262144]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S256x1 .f32) (main_arg5 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x1 .f32 := Host.absf main_arg4
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S100000x256 .f32) (main_arg1 : FVec F S100000x256 .f32) (main_arg2 : FVec F S512x256 .f32) (main_arg3 : FVec F S256 .f32) (main_arg4 : FVec F S256x1 .f32) (main_arg5 : FVec F S1 .f32) (main_arg6 : IVec S2x262144 32) (main_arg7 : IVec S2x262144 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x256 .f32 := Host.absf main_arg1
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S100000x256 : Shape := ⟨2, ![100000, 256]⟩
abbrev S512x256 : Shape := ⟨2, ![512, 256]⟩
abbrev S256 : Shape := ⟨1, ![256]⟩
abbrev S256x1 : Shape := ⟨2, ![256, 1]⟩
abbrev S1 : Shape := ⟨1, ![1]⟩
abbrev S2x262144 : Shape := ⟨2, ![2, 262144]⟩
abbrev S1x262144 : Shape := ⟨2, ![1, 262144]⟩
abbrev S262144 : Shape := ⟨1, ![262144]⟩
abbrev S_ : Shape := ⟨0, ![]⟩
abbrev S262144x1 : Shape := ⟨2, ![262144, 1]⟩
abbrev S262144x256 : Shape := ⟨2, ![262144, 256]⟩
abbrev S256x256 : Shape := ⟨2, ![256, 256]⟩
abbrev S1x256 : Shape := ⟨2, ![1, 256]⟩
abbrev S8192x256 : Shape := ⟨2, ![8192, 256]⟩
abbrev S8192x1 : Shape := ⟨2, ![8192, 1]⟩
abbrev S8192 : Shape := ⟨1, ![8192]⟩
abbrev S1x1 : Shape := ⟨2, ![1, 1]⟩

abbrev nBuf : Space → Nat
  | .hbm => 63
  | .vmem => 22
  | .smem => 0
  | _ => 0

abbrev bufTy : (tb : Table) → Fin (tcTables nBuf tb) → BufTy
  | .hbm, ⟨0, _⟩ => ⟨S100000x256, .f32⟩
  | .hbm, ⟨1, _⟩ => ⟨S100000x256, .f32⟩
  | .hbm, ⟨2, _⟩ => ⟨S512x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S2x262144, .i32⟩
  | .hbm, ⟨7, _⟩ => ⟨S2x262144, .i32⟩
  | .hbm, ⟨8, _⟩ => ⟨S1x262144, .i32⟩
  | .hbm, ⟨9, _⟩ => ⟨S262144, .i32⟩
  | .hbm, ⟨10, _⟩ => ⟨S1x262144, .i32⟩
  | .hbm, ⟨11, _⟩ => ⟨S262144, .i32⟩
  | .hbm, ⟨12, _⟩ => ⟨S1x262144, .i32⟩
  | .hbm, ⟨13, _⟩ => ⟨S262144, .i32⟩
  | .hbm, ⟨14, _⟩ => ⟨S1x262144, .i32⟩
  | .hbm, ⟨15, _⟩ => ⟨S262144, .i32⟩
  | .hbm, ⟨16, _⟩ => ⟨S100000x256, .bf16⟩
  | .hbm, ⟨17, _⟩ => ⟨S100000x256, .bf16⟩
  | .hbm, ⟨18, _⟩ => ⟨S_, .i32⟩
  | .hbm, ⟨19, _⟩ => ⟨S262144, .i32⟩
  | .hbm, ⟨20, _⟩ => ⟨S262144, .i1⟩
  | .hbm, ⟨21, _⟩ => ⟨S_, .i32⟩
  | .hbm, ⟨22, _⟩ => ⟨S262144, .i32⟩
  | .hbm, ⟨23, _⟩ => ⟨S262144, .i32⟩
  | .hbm, ⟨24, _⟩ => ⟨S262144, .i32⟩
  | .hbm, ⟨25, _⟩ => ⟨S262144x1, .i32⟩
  | .hbm, ⟨26, _⟩ => ⟨S262144x256, .bf16⟩
  | .hbm, ⟨27, _⟩ => ⟨S_, .i32⟩
  | .hbm, ⟨28, _⟩ => ⟨S262144, .i32⟩
  | .hbm, ⟨29, _⟩ => ⟨S262144, .i1⟩
  | .hbm, ⟨30, _⟩ => ⟨S_, .i32⟩
  | .hbm, ⟨31, _⟩ => ⟨S262144, .i32⟩
  | .hbm, ⟨32, _⟩ => ⟨S262144, .i32⟩
  | .hbm, ⟨33, _⟩ => ⟨S262144, .i32⟩
  | .hbm, ⟨34, _⟩ => ⟨S262144x1, .i32⟩
  | .hbm, ⟨35, _⟩ => ⟨S262144x256, .bf16⟩
  | .hbm, ⟨36, _⟩ => ⟨S_, .i32⟩
  | .hbm, ⟨37, _⟩ => ⟨S262144, .i32⟩
  | .hbm, ⟨38, _⟩ => ⟨S262144, .i1⟩
  | .hbm, ⟨39, _⟩ => ⟨S_, .i32⟩
  | .hbm, ⟨40, _⟩ => ⟨S262144, .i32⟩
  | .hbm, ⟨41, _⟩ => ⟨S262144, .i32⟩
  | .hbm, ⟨42, _⟩ => ⟨S262144, .i32⟩
  | .hbm, ⟨43, _⟩ => ⟨S262144x1, .i32⟩
  | .hbm, ⟨44, _⟩ => ⟨S262144x256, .bf16⟩
  | .hbm, ⟨45, _⟩ => ⟨S_, .i32⟩
  | .hbm, ⟨46, _⟩ => ⟨S262144, .i32⟩
  | .hbm, ⟨47, _⟩ => ⟨S262144, .i1⟩
  | .hbm, ⟨48, _⟩ => ⟨S_, .i32⟩
  | .hbm, ⟨49, _⟩ => ⟨S262144, .i32⟩
  | .hbm, ⟨50, _⟩ => ⟨S262144, .i32⟩
  | .hbm, ⟨51, _⟩ => ⟨S262144, .i32⟩
  | .hbm, ⟨52, _⟩ => ⟨S262144x1, .i32⟩
  | .hbm, ⟨53, _⟩ => ⟨S262144x256, .bf16⟩
  | .hbm, ⟨54, _⟩ => ⟨S256x256, .f32⟩
  | .hbm, ⟨55, _⟩ => ⟨S256x256, .bf16⟩
  | .hbm, ⟨56, _⟩ => ⟨S256x256, .f32⟩
  | .hbm, ⟨57, _⟩ => ⟨S256x256, .bf16⟩
  | .hbm, ⟨58, _⟩ => ⟨S1x256, .f32⟩
  | .hbm, ⟨59, _⟩ => ⟨S262144x1, .f32⟩
  | .hbm, ⟨60, _⟩ => ⟨S262144, .f32⟩
  | .hbm, ⟨61, _⟩ => ⟨S262144x1, .f32⟩
  | .hbm, ⟨62, _⟩ => ⟨S262144, .f32⟩
  | .local _ .vmem, ⟨0, _⟩ => ⟨S8192x256, .bf16⟩
  | .local _ .vmem, ⟨1, _⟩ => ⟨S8192x256, .bf16⟩
  | .local _ .vmem, ⟨2, _⟩ => ⟨S8192x256, .bf16⟩
  | .local _ .vmem, ⟨3, _⟩ => ⟨S8192x256, .bf16⟩
  | .local _ .vmem, ⟨4, _⟩ => ⟨S256x256, .bf16⟩
  | .local _ .vmem, ⟨5, _⟩ => ⟨S256x256, .bf16⟩
  | .local _ .vmem, ⟨6, _⟩ => ⟨S256, .f32⟩
  | .local _ .vmem, ⟨7, _⟩ => ⟨S1x256, .f32⟩
  | .local _ .vmem, ⟨8, _⟩ => ⟨S1, .f32⟩
  | .local _ .vmem, ⟨9, _⟩ => ⟨S8192x1, .f32⟩
  | .local _ .vmem, ⟨10, _⟩ => ⟨S8192x1, .f32⟩
  | .local _ .vmem, ⟨11, _⟩ => ⟨S8192x256, .bf16⟩
  | .local _ .vmem, ⟨12, _⟩ => ⟨S8192x256, .bf16⟩
  | .local _ .vmem, ⟨13, _⟩ => ⟨S8192x256, .bf16⟩
  | .local _ .vmem, ⟨14, _⟩ => ⟨S8192x256, .bf16⟩
  | .local _ .vmem, ⟨15, _⟩ => ⟨S256x256, .bf16⟩
  | .local _ .vmem, ⟨16, _⟩ => ⟨S256x256, .bf16⟩
  | .local _ .vmem, ⟨17, _⟩ => ⟨S256, .f32⟩
  | .local _ .vmem, ⟨18, _⟩ => ⟨S1x256, .f32⟩
  | .local _ .vmem, ⟨19, _⟩ => ⟨S1, .f32⟩
  | .local _ .vmem, ⟨20, _⟩ => ⟨S8192x1, .f32⟩
  | .local _ .vmem, ⟨21, _⟩ => ⟨S8192x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_1 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_3 : Ref sig .tc := ⟨.hbm, 36, rfl⟩
abbrev main_v24 : Ref sig .tc := ⟨.hbm, 37, rfl⟩
abbrev main_v25 : Ref sig .tc := ⟨.hbm, 38, rfl⟩
abbrev main_c_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8192x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S8192x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bitsLt_bf16_f32 : FTy.bits .bf16 < FTy.bits .f32
  bcast_S_S262144 : S_.BroadcastsInDim S262144 (![] : Fin 0 → Fin S262144.rank)
  bcast_S262144_S262144x1_0 : S262144.BroadcastsInDim S262144x1 (![0] : Fin 1 → Fin S262144x1.rank)
  slices_S512x256_S256x256_0_0 : S512x256.Slices ![0, 0] S256x256
  slices_S512x256_S256x256_256_0 : S512x256.Slices ![256, 0] S256x256
  transposes_S256x1_S1x256_1_0 : S256x1.Transposes [1, 0] S1x256
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S8192x256 : S1x256.Broadcasts S8192x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  reduces_S8192x256_S8192 : S8192x256.Reduces [1] S8192
  shapeCasts_S8192_S8192x1 : S8192.ShapeCasts S8192x1
  inb_S1_S1_0 : ∀ a, (![0] : Fin 1 → Nat) a + S1.size a ≤ S1.size a
  h_S1 : 0 < S1.numel
  shapeCasts_S1_S1x1 : S1.ShapeCasts S1x1
  broadcasts_S1x1_S8192x1 : S1x1.Broadcasts S8192x1
  inb_S8192x1_S8192x1_0_0 : ∀ a, (![0, 0] : Fin 2 → Nat) a + S8192x1.size a ≤ S8192x1.size a
  h_S8192x1 : 0 < S8192x1.numel
  shapeCasts_S262144x1_S262144 : S262144x1.ShapeCasts S262144
  gather_S100000x256_S262144x1_S262144x256_1_0_n_n_0_1_1256_wf : GatherDims.WF S100000x256 S262144x1 S262144x256 [1] [0] [] [0] [] 1 ![1, 256]
  dot_S8192x256_S256x256_S8192x256_1_0_0_1_n_n_wf : DotDims.WF S8192x256 S256x256 S8192x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S262144x256.size a
  hwx0_0 : ∀ i : grid0.Coords, EltTy.bits .bf16 = 32 ∨ (Rect.block (s := S262144x256) S8192x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S262144x256.size a
  hwx0_1 : ∀ i : grid0.Coords, EltTy.bits .bf16 = 32 ∨ (Rect.block (s := S262144x256) S8192x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8192x1.size a ≤ S262144x1.size a
  hwx0_7 : ∀ i : grid0.Coords, EltTy.bits .f32 = 32 ∨ (Rect.block (s := S262144x1) S8192x1.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x256.size a ≤ S262144x256.size a
  hwx1_0 : ∀ i : grid1.Coords, EltTy.bits .bf16 = 32 ∨ (Rect.block (s := S262144x256) S8192x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S262144x256.size a
  hwx1_1 : ∀ i : grid1.Coords, EltTy.bits .bf16 = 32 ∨ (Rect.block (s := S262144x256) S8192x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1.size a ≤ S1.size a
  hwx1_6 : ∀ i : grid1.Coords, EltTy.bits .f32 = 32 ∨ (Rect.block (s := S1) S1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S8192x1.size a ≤ S262144x1.size a
  hwx1_7 : ∀ i : grid1.Coords, EltTy.bits .f32 = 32 ∨ (Rect.block (s := S262144x1) S8192x1.size (cc1_transform_7 i) (hinb1_7 i)).WholeWords (EltTy.packing .f32)

variable [Facts₀]

def gather_S100000x256_S262144x1_S262144x256_1_0_n_n_0_1_1256 : GatherDims S100000x256 S262144x1 S262144x256 where
  offsetDims := [1]
  collapsedSliceDims := [0]
  operandBatchingDims := []
  startIndicesBatchingDims := []
  startIndexMap := [0]
  indexVectorDim := 1
  sliceSizes := ![1, 256]
  wf := gather_S100000x256_S262144x1_S262144x256_1_0_n_n_0_1_1256_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf

abbrev win0_0 : Pipeline.Window sig grid0 :=
  Pipeline.Window.ofSpec (Memref.whole main_v16) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S8192x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v39) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v41) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v42) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v43) S8192x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v30) S8192x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S8192x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg5) S1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v45) S8192x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x256 : Shape := ⟨2, ![100000, 256]⟩
abbrev S512x256 : Shape := ⟨2, ![512, 256]⟩
abbrev S256 : Shape := ⟨1, ![256]⟩
abbrev S256x1 : Shape := ⟨2, ![256, 1]⟩
abbrev S1 : Shape := ⟨1, ![1]⟩
abbrev S2x262144 : Shape := ⟨2, ![2, 262144]⟩
abbrev S1x262144 : Shape := ⟨2, ![1, 262144]⟩
abbrev S262144 : Shape := ⟨1, ![262144]⟩
abbrev S_ : Shape := ⟨0, ![]⟩
abbrev S262144x1 : Shape := ⟨2, ![262144, 1]⟩
abbrev S262144x256 : Shape := ⟨2, ![262144, 256]⟩
abbrev S262144x512 : Shape := ⟨2, ![262144, 512]⟩
abbrev S1x256 : Shape := ⟨2, ![1, 256]⟩
abbrev S1x1 : Shape := ⟨2, ![1, 1]⟩

abbrev nBuf : Space → Nat
  | .hbm => 78
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S100000x256, .f32⟩
  | .hbm, ⟨2, _⟩ => ⟨S512x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S2x262144, .i32⟩
  | .hbm, ⟨7, _⟩ => ⟨S2x262144, .i32⟩
  | .hbm, ⟨8, _⟩ => ⟨S1x262144, .i32⟩
  | .hbm, ⟨9, _⟩ => ⟨S262144, .i32⟩
  | .hbm, ⟨10, _⟩ => ⟨S1x262144, .i32⟩
  | .hbm, ⟨11, _⟩ => ⟨S262144, .i32⟩
  | .hbm, ⟨12, _⟩ => ⟨S1x262144, .i32⟩
  | .hbm, ⟨13, _⟩ => ⟨S262144, .i32⟩
  | .hbm, ⟨14, _⟩ => ⟨S1x262144, .i32⟩
  | .hbm, ⟨15, _⟩ => ⟨S262144, .i32⟩
  | .hbm, ⟨16, _⟩ => ⟨S_, .i32⟩
  | .hbm, ⟨17, _⟩ => ⟨S262144, .i32⟩
  | .hbm, ⟨18, _⟩ => ⟨S262144, .i1⟩
  | .hbm, ⟨19, _⟩ => ⟨S_, .i32⟩
  | .hbm, ⟨20, _⟩ => ⟨S262144, .i32⟩
  | .hbm, ⟨21, _⟩ => ⟨S262144, .i32⟩
  | .hbm, ⟨22, _⟩ => ⟨S262144, .i32⟩
  | .hbm, ⟨23, _⟩ => ⟨S262144x1, .i32⟩
  | .hbm, ⟨24, _⟩ => ⟨S262144x256, .f32⟩
  | .hbm, ⟨25, _⟩ => ⟨S_, .i32⟩
  | .hbm, ⟨26, _⟩ => ⟨S262144, .i32⟩
  | .hbm, ⟨27, _⟩ => ⟨S262144, .i1⟩
  | .hbm, ⟨28, _⟩ => ⟨S_, .i32⟩
  | .hbm, ⟨29, _⟩ => ⟨S262144, .i32⟩
  | .hbm, ⟨30, _⟩ => ⟨S262144, .i32⟩
  | .hbm, ⟨31, _⟩ => ⟨S262144, .i32⟩
  | .hbm, ⟨32, _⟩ => ⟨S262144x1, .i32⟩
  | .hbm, ⟨33, _⟩ => ⟨S262144x256, .f32⟩
  | .hbm, ⟨34, _⟩ => ⟨S262144x512, .f32⟩
  | .hbm, ⟨35, _⟩ => ⟨S262144x256, .f32⟩
  | .hbm, ⟨36, _⟩ => ⟨S1x256, .f32⟩
  | .hbm, ⟨37, _⟩ => ⟨S262144x256, .f32⟩
  | .hbm, ⟨38, _⟩ => ⟨S262144x256, .f32⟩
  | .hbm, ⟨39, _⟩ => ⟨S_, .f32⟩
  | .hbm, ⟨40, _⟩ => ⟨S262144x256, .f32⟩
  | .hbm, ⟨41, _⟩ => ⟨S262144x256, .f32⟩
  | .hbm, ⟨42, _⟩ => ⟨S262144x1, .f32⟩
  | .hbm, ⟨43, _⟩ => ⟨S1x1, .f32⟩
  | .hbm, ⟨44, _⟩ => ⟨S262144x1, .f32⟩
  | .hbm, ⟨45, _⟩ => ⟨S262144x1, .f32⟩
  | .hbm, ⟨46, _⟩ => ⟨S262144, .f32⟩
  | .hbm, ⟨47, _⟩ => ⟨S_, .i32⟩
  | .hbm, ⟨48, _⟩ => ⟨S262144, .i32⟩
  | .hbm, ⟨49, _⟩ => ⟨S262144, .i1⟩
  | .hbm, ⟨50, _⟩ => ⟨S_, .i32⟩
  | .hbm, ⟨51, _⟩ => ⟨S262144, .i32⟩
  | .hbm, ⟨52, _⟩ => ⟨S262144, .i32⟩
  | .hbm, ⟨53, _⟩ => ⟨S262144, .i32⟩
  | .hbm, ⟨54, _⟩ => ⟨S262144x1, .i32⟩
  | .hbm, ⟨55, _⟩ => ⟨S262144x256, .f32⟩
  | .hbm, ⟨56, _⟩ => ⟨S_, .i32⟩
  | .hbm, ⟨57, _⟩ => ⟨S262144, .i32⟩
  | .hbm, ⟨58, _⟩ => ⟨S262144, .i1⟩
  | .hbm, ⟨59, _⟩ => ⟨S_, .i32⟩
  | .hbm, ⟨60, _⟩ => ⟨S262144, .i32⟩
  | .hbm, ⟨61, _⟩ => ⟨S262144, .i32⟩
  | .hbm, ⟨62, _⟩ => ⟨S262144, .i32⟩
  | .hbm, ⟨63, _⟩ => ⟨S262144x1, .i32⟩
  | .hbm, ⟨64, _⟩ => ⟨S262144x256, .f32⟩
  | .hbm, ⟨65, _⟩ => ⟨S262144x512, .f32⟩
  | .hbm, ⟨66, _⟩ => ⟨S262144x256, .f32⟩
  | .hbm, ⟨67, _⟩ => ⟨S1x256, .f32⟩
  | .hbm, ⟨68, _⟩ => ⟨S262144x256, .f32⟩
  | .hbm, ⟨69, _⟩ => ⟨S262144x256, .f32⟩
  | .hbm, ⟨70, _⟩ => ⟨S_, .f32⟩
  | .hbm, ⟨71, _⟩ => ⟨S262144x256, .f32⟩
  | .hbm, ⟨72, _⟩ => ⟨S262144x256, .f32⟩
  | .hbm, ⟨73, _⟩ => ⟨S262144x1, .f32⟩
  | .hbm, ⟨74, _⟩ => ⟨S1x1, .f32⟩
  | .hbm, ⟨75, _⟩ => ⟨S262144x1, .f32⟩
  | .hbm, ⟨76, _⟩ => ⟨S262144x1, .f32⟩
  | .hbm, ⟨77, _⟩ => ⟨S262144, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_cst : Ref sig .tc := ⟨.hbm, 39, rfl⟩
abbrev main_call0_v0 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_3 : Ref sig .tc := ⟨.hbm, 47, rfl⟩
abbrev main_v33 : Ref sig .tc := ⟨.hbm, 48, rfl⟩
abbrev main_v34 : Ref sig .tc := ⟨.hbm, 49, rfl⟩
abbrev main_c_4 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_5 : Ref sig .tc := ⟨.hbm, 56, rfl⟩
abbrev main_v40 : Ref sig .tc := ⟨.hbm, 57, rfl⟩
abbrev main_v41 : Ref sig .tc := ⟨.hbm, 58, rfl⟩
abbrev main_c_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_call1_cst : Ref sig .tc := ⟨.hbm, 70, rfl⟩
abbrev main_call1_v0 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  concatenates_S262144x256_S262144x256_S262144x512_d1 : Shape.Concatenates [S262144x256, S262144x256] S262144x512 1
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  shapeCasts_S262144x1_S262144 : S262144x1.ShapeCasts S262144
  gather_S100000x256_S262144x1_S262144x256_1_0_n_n_0_1_1256_wf : GatherDims.WF S100000x256 S262144x1 S262144x256 [1] [0] [] [0] [] 1 ![1, 256]
  dot_S262144x512_S512x256_S262144x256_1_0_0_1_n_n_wf : DotDims.WF S262144x512 S512x256 S262144x256 [1] [0] [0] [1] [] []
  dot_S262144x256_S256x1_S262144x1_1_0_0_1_n_n_wf : DotDims.WF S262144x256 S256x1 S262144x1 [1] [0] [0] [1] [] []

variable [Facts₀]

def gather_S100000x256_S262144x1_S262144x256_1_0_n_n_0_1_1256 : GatherDims S100000x256 S262144x1 S262144x256 where
  offsetDims := [1]
  collapsedSliceDims := [0]
  operandBatchingDims := []
  startIndicesBatchingDims := []
  startIndexMap := [0]
  indexVectorDim := 1
  sliceSizes := ![1, 256]
  wf := gather_S100000x256_S262144x1_S262144x256_1_0_n_n_0_1_1256_wf
def dot_S262144x512_S512x256_S262144x256_1_0_0_1_n_n : DotDims S262144x512 S512x256 S262144x256 where
  lhsContracting := [1]
  rhsContracting := [0]
  lhsNonContracting := [0]
  rhsNonContracting := [1]
  lhsBatch := []
  rhsBatch := []
  wf := dot_S262144x512_S512x256_S262144x256_1_0_0_1_n_n_wf
def dot_S262144x256_S256x1_S262144x1_1_0_0_1_n_n : DotDims S262144x256 S256x1 S262144x1 where
  lhsContracting := [1]
  rhsContracting := [0]
  lhsNonContracting := [0]
  rhsNonContracting := [1]
  lhsBatch := []
  rhsBatch := []
  wf := dot_S262144x256_S256x1_S262144x1_1_0_0_1_n_n_wf

class Facts : Prop extends Facts₀ where

variable [Facts]
-- ==== Proof.KernelWhole.lean ====
/-
  The whole program's run, with every buffer named.

  The program is five segments: the host operations that slice the index rows, gather the node rows and cut the weights;
  the first scoring call; one reshape; the second scoring call; one reshape. Every weakly fair execution terminates without
  a fault, and at the end every buffer the host can see holds what the last segment boundary says it holds: the contents
  folded through the five segments from the launch memory. The two results and the eight arguments are read off this one
  statement.
-/
import proofs.«126227_j51041391345811_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters the program terminates, nothing faulting, and every buffer that outlives the calls
    ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.KernelIdeal.Whole

end
-- ==== Proof.EdgeScore.lean ====
/-
  The edge score of a two-layer scorer, as ONE function of the gathered rows and the parameters, and the one law of
  sums that joins the two ways of computing its first layer.

  For an edge $e$ with source row $xs_e$ and destination row $xd_e$ (256 numbers each), weights $W_1$ (512 × 256),
  bias $b_1$, second-layer weights $W_2$ (256 × 1) and bias $b_2$:

    h_j   = Σ_{k<256} xs_e[k] · W1[k, j]  +  Σ_{k<256} xd_e[k] · W1[256 + k, j]  +  b1[j]
    score = Σ_{j<256} max(h_j, 0) · W2[j, 0]  +  b2[0].

  Multiplying the concatenated row $[xs_e, xd_e]$ (512 numbers) into $W_1$ gives the same $h_j$: a sum over 512 indices
  is the sum over its first 256 plus the sum over its last 256. That uses only that addition of extended reals is
  commutative and associative, so nothing here asks for the entries to be finite.
-/
import Idealize.ShloMosaic.PureOps.Ideal
import Idealize.ShloMosaic.Lib.ValueIdx

noncomputable section

namespace Cert.EdgeScore

open Idealize.ShloMosaic Idealize.ShloMosaic.ValueIdx

/-- Row $k$ of the upper half of a 512-row matrix. -/
abbrev lo (k : Fin 256) : Fin 512 := ⟨k.val, by have := k.isLt; omega⟩
/-- Row $256 + k$: row $k$ of the lower half. -/
abbrev hi (k : Fin 256) : Fin 512 := ⟨256 + k.val, by have := k.isLt; omega⟩

/-- The value a rectifier compares with: the float word of $+0$, read exactly. -/
abbrev zeroWord : EReal := Ideal.ofBits .f32 0x00000000#32

/-- The score of one edge from its two gathered rows, with the first layer's weights given as the two halves the rows
    meet (\`Ws\` the upper 256 rows of $W_1$, \`Wd\` the lower) and the second layer's as a row vector. -/
def rowScore (xs xd : Fin 256 → EReal) (Ws Wd : (⟨2, ![256, 256]⟩ : Shape).Idx → EReal)
    (b1 : (⟨1, ![256]⟩ : Shape).Idx → EReal) (w2 : (⟨2, ![1, 256]⟩ : Shape).Idx → EReal)
    (b2 : (⟨1, ![1]⟩ : Shape).Idx → EReal) : EReal :=
  (∑ j : Fin 256, max ((∑ k : Fin 256, xs k * Ws (ix2 k j)) + (∑ k : Fin 256, xd k * Wd (ix2 k j)) + b1 (ix1 j)) zeroWord
      * w2 (ix2 (0 : Fin 1) j))
    + b2 (ix1 (0 : Fin 1))

/-- The scores of all 262144 edges from the gathered source rows \`xs\`, the gathered destination rows \`xd\` and the
    parameters as the caller passes them: $W_1$ whole, $W_2$ a column. -/
def edgeScore (xs xd : (⟨2, ![262144, 256]⟩ : Shape).Idx → EReal) (W1 : (⟨2, ![512, 256]⟩ : Shape).Idx → EReal)
    (b1 : (⟨1, ![256]⟩ : Shape).Idx → EReal) (W2 : (⟨2, ![256, 1]⟩ : Shape).Idx → EReal)
    (b2 : (⟨1, ![1]⟩ : Shape).Idx → EReal) : (⟨1, ![262144]⟩ : Shape).Idx → EReal := fun i =>
  (∑ j : Fin 256, max ((∑ k : Fin 256, xs (ix2 (i 0) k) * W1 (ix2 (lo k) j))
        + (∑ k : Fin 256, xd (ix2 (i 0) k) * W1 (ix2 (hi k) j)) + b1 (ix1 j)) zeroWord
      * W2 (ix2 j (0 : Fin 1)))
    + b2 (ix1 (0 : Fin 1))

/-- A sum over 512 indices is the sum over the first 256 plus the sum over the last 256. -/
theorem sum_halves {M : Type*} [AddCommMonoid M] (f : Fin 512 → M) :
    ∑ k : Fin 512, f k = (∑ k : Fin 256, f (lo k)) + ∑ k : Fin 256, f (hi k) :=
  Fin.sum_univ_add (a := 256) (b := 256) f

end Cert.EdgeScore

end
-- ==== Proof.LibKeepdims.lean ====
/-
  Two layout operations read at an index written by coordinates: the COLUMN forms a sum that keeps its reduced axis
  needs. A vector `[a]` cast to a column `[a, 1]` reads, at `(i, u)`, the vector at `i`; a column `[a, 1]` broadcast over
  `[a, b]` reads, at `(p, c)`, the column at `(p, 0)`. (The row forms, `[a] → [1, a]` and `[1, b] → [a, b]`, are in
  Lib/ValueLayout.lean; these are their transposes, proved the same way.) General: nothing here mentions a program.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to `[a, 1]` reads, at `(i, u)`, the operand at `i`, whatever the unit coordinate `u`: the row-major
    positions agree, `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- ONE COLUMN BROADCAST over many: an `[a, 1]` array broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibPlainMatmul.lean ====
/-
  A plain matrix product into a zero accumulator, read at an index written by coordinates.

  For dimension numbers that contract the left operand's columns against the right operand's rows — no batch axis,
  `[M, K] · [K, N] → [M, N]` — the product accumulated into the zero splat reads, at `(p, j)`,
  `Σ_k lhs (p, k) · rhs (k, j)` over the `K` values of the contracted coordinate: the accumulator contributes `0`, and
  the sum over the one-axis contraction index is re-indexed by that axis's coordinate. The dimension numbers enter only
  through four facts about where they send an output index and a contraction index (`hl0 … hr1`), which hold by
  unfolding for any record of this form. General: nothing here mentions a program.
-/
import Idealize.ShloMosaic.PureOps.Ideal.Laws
import Idealize.ShloMosaic.Lib.ValueIdx

noncomputable section

namespace Cert.LibPlainMatmul

open Idealize.ShloMosaic Idealize.ShloMosaic.ValueIdx

/-- `[M, K] · [K, N]` into the zero splat, at `(p, j)`, is `Σ_k lhs (p, k) · rhs (k, j)`. -/
theorem matmul_zero_at {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![M, K]⟩ φ₁) (rhs : FVec Ideal ⟨2, ![K, N]⟩ φ₂) (p : Fin M) (j : Fin N) :
    FloatOps.matmul D prec lhs rhs (constant ⟨2, ![M, N]⟩ .f32 0x00000000#32) (ix2 p j)
      = ∑ k : Fin K, lhs (ix2 p k) * rhs (ix2 k j) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.LibPlainMatmul

end
-- ==== Proof.KernelPayload.lean ====
/-
  What one grid point's body stores, entry by entry.

  The body loads a block of 8192 gathered source rows and a block of 8192 gathered destination rows (256 numbers each),
  the two 256 × 256 halves of the first layer's weights, its bias, the second layer's weights as a row, and its bias. Row
  $p$ of what it stores is the edge score of row $p$ of the two blocks: the two matrix products start from zero, so each is
  the plain sum $Σ_k x[p, k] · W[k, j]$; the bias row and the weight row are repeated down the 8192 rows; the lane sum
  over the 256 columns starts from the neutral word; and the result keeps its summed axis as a column of width one.
-/
import proofs.«126227_j51041391345811_2_alg».proof.Proof.Gen.KernelIdeal.Skeleton
import proofs.«126227_j51041391345811_2_alg».proof.Proof.EdgeScore
import proofs.«126227_j51041391345811_2_alg».proof.Proof.LibKeepdims
import proofs.«126227_j51041391345811_2_alg».proof.Proof.LibPlainMatmul
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen Cert.EdgeScore

/-- The dimension numbers of both products: the left operand's columns against the right operand's rows. -/
abbrev D : DotDims S8192x256 S256x256 S8192x256 := dot_S8192x256_S256x256_S8192x256_1_0_0_1_n_n

theorem D_lhs0 (i : S8192x256.Idx) (q : D.contr.Idx) : (D.lhsIdx i q 0).val = (i 0).val := by
  unfold DotDims.lhsIdx
  rw [dif_neg (show ¬(0 : Fin S8192x256.rank) ∈ D.lhsBatch by decide),
    dif_pos (show (0 : Fin S8192x256.rank) ∈ D.lhsNonContracting by decide)]
  rfl
theorem D_lhs1 (i : S8192x256.Idx) (q : D.contr.Idx) : (D.lhsIdx i q 1).val = (q ⟨0, by decide⟩).val :=
  D.lhsIdx_val_of_single rfl i q
theorem D_rhs0 (i : S8192x256.Idx) (q : D.contr.Idx) : (D.rhsIdx i q 0).val = (q ⟨0, by decide⟩).val :=
  D.rhsIdx_val_of_single rfl i q
theorem D_rhs1 (i : S8192x256.Idx) (q : D.contr.Idx) : (D.rhsIdx i q 1).val = (i 1).val := by
  unfold DotDims.rhsIdx
  rw [dif_neg (show ¬(1 : Fin S256x256.rank) ∈ D.rhsBatch by decide),
    dif_pos (show (1 : Fin S256x256.rank) ∈ D.rhsNonContracting by decide)]
  rfl

/-- A block of rows times a 256 × 256 matrix, from the zero accumulator: entry $(p, j)$ is $Σ_k x[p, k] · W[k, j]$. -/
theorem product_at (x : FVec Ideal S8192x256 .bf16) (W : FVec Ideal S256x256 .bf16) (p : Fin 8192) (j : Fin 256) :
    matmul D none (shapeCast S8192x256 x shapeCasts_S8192x256_S8192x256) (shapeCast S256x256 W shapeCasts_S256x256_S256x256)
        (constant (F := Ideal) S8192x256 .f32 0x00000000#32) (ix2 p j)
      = ∑ k : Fin 256, x (ix2 p k) * W (ix2 k j) := by
  rw [shapeCast_self, shapeCast_self]
  exact Cert.LibPlainMatmul.matmul_zero_at D none rfl rfl D_lhs0 D_lhs1 D_rhs0 D_rhs1 x W p j

/-- The first layer's bias, a vector of 256, laid as one row and repeated down the rows: entry $(p, j)$ is $b[j]$. -/
theorem biasRow_at (b : FVec Ideal S256 .f32) (p : Fin 8192) (j : Fin 256) :
    broadcastTo S8192x256 (shapeCast S1x256 b shapeCasts_S256_S1x256) broadcasts_S1x256_S8192x256 (ix2 p j) = b (ix1 j) :=
  (broadcastTo_1b_ab_apply _ broadcasts_S1x256_S8192x256 p j).trans (shapeCast_a_1a_apply b shapeCasts_S256_S1x256 0 j)

/-- The second layer's weights, already one row, repeated down the rows: entry $(p, j)$ is $w[0, j]$. -/
theorem weightRow_at (w : FVec Ideal S1x256 .f32) (p : Fin 8192) (j : Fin 256) :
    broadcastTo S8192x256 (shapeCast S1x256 w shapeCasts_S1x256_S1x256) broadcasts_S1x256_S8192x256 (ix2 p j) = w (ix2 (0 : Fin 1) j) := by
  rw [shapeCast_self]
  exact broadcastTo_1b_ab_apply w broadcasts_S1x256_S8192x256 p j

/-- The second layer's bias, one number, laid as a 1 × 1 matrix and repeated down the column: every entry is $b[0]$. -/
theorem biasCol_at (b : FVec Ideal S1 .f32) (p : Fin 8192) (u : Fin 1) :
    broadcastTo S8192x1 (shapeCast S1x1 b shapeCasts_S1_S1x1) broadcasts_S1x1_S8192x1 (ix2 p u) = b (ix1 (0 : Fin 1)) := by
  have hu : u = 0 := Subsingleton.elim u 0
  subst hu
  exact (broadcastTo_1b_ab_apply _ broadcasts_S1x1_S8192x1 p 0).trans (shapeCast_a_1a_apply b shapeCasts_S1_S1x1 0 0)

/-- The sum over the 256 columns of a block, kept as a column of width one: entry $(p, u)$ is $Σ_j v[p, j]$. -/
theorem laneSum_at (v : FVec Ideal S8192x256 .f32) (hacc : (0x00000000#32 : BitVec 32) = 0x00000000#32) (p : Fin 8192) (u : Fin 1) :
    shapeCast S8192x1 (multiReduction .add [1] S8192 v 0x00000000#32 reduces_S8192x256_S8192 (.inl rfl) hacc) shapeCasts_S8192_S8192x1 (ix2 p u)
      = ∑ j : Fin 256, v (ix2 p j) := by
  refine (Cert.Keepdims.shapeCast_a_a1_apply _ shapeCasts_S8192_S8192x1 p u).trans ?_
  refine (Ideal.multiReduction_add_single v 0x00000000#32 reduces_S8192x256_S8192 (.inl rfl) hacc (ix1 p)).trans ?_
  refine Finset.sum_congr rfl fun j _ => congrArg v ?_
  funext c
  apply Fin.ext
  match c with
  | ⟨0, _⟩ => rfl
  | ⟨1, _⟩ => rfl

/-- Row $p$ of what the body stores is the edge score of row $p$ of its two blocks of gathered rows. -/
theorem pay_at (x0 x1 : FVec Ideal S8192x256 .bf16) (x2 x3 : FVec Ideal S256x256 .bf16) (x4 : FVec Ideal S256 .f32)
    (x5 : FVec Ideal S1x256 .f32) (x6 : FVec Ideal S1 .f32) (p : Fin 8192) (u : Fin 1) :
    k0_pay1 (F := Ideal) x0 x1 x2 x3 x4 x5 x6 (ix2 p u)
      = rowScore (fun k => x0 (ix2 p k)) (fun k => x1 (ix2 p k)) x2 x3 x4 x5 x6 := by
  unfold k0_pay1 rowScore
  dsimp only
  rw [addf_apply, biasCol_at, laneSum_at]
  refine congrArg (· + x6 (ix1 (0 : Fin 1))) (Finset.sum_congr rfl fun j _ => ?_)
  rw [mulf_apply, weightRow_at, maximumf_apply, addf_apply, addf_apply, biasRow_at, product_at, product_at]
  rfl

/-- The second call's body is the same body. -/
theorem pay1_eq (x0 x1 : FVec Ideal S8192x256 .bf16) (x2 x3 : FVec Ideal S256x256 .bf16) (x4 : FVec Ideal S256 .f32)
    (x5 : FVec Ideal S1x256 .f32) (x6 : FVec Ideal S1 .f32) :
    k1_pay1 (F := Ideal) x0 x1 x2 x3 x4 x5 x6 = k0_pay1 (F := Ideal) x0 x1 x2 x3 x4 x5 x6 := rfl

end Cert.KernelIdeal.Payload

end
-- ==== Proof.KernelRegion0.lean ====
/-
  The array the first call leaves, as one function of the arrays it finds.

  The call runs the scorer's body at 32 grid points. At point $t$ the two row windows hold rows $8192·t … 8192·t + 8191$
  of the gathered source rows and of the gathered destination rows; the five parameter windows hold their whole arrays at
  every point; and the output window's block is rows $8192·t … 8192·t + 8191$ of the 262144 × 1 result. So what point $t$
  writes back is that block of ONE function of the arrays — row $e$ is the edge score of row $e$ of the two gathered
  arrays — and the 32 blocks tile the result: row $e$ lies in the block of point $e / 8192$. The statement is for any
  contents \`V\` the call may find in its arrays.
-/
import proofs.«126227_j51041391345811_2_alg».proof.Proof.Gen.KernelIdeal.Frame
import proofs.«126227_j51041391345811_2_alg».proof.Proof.KernelPayload
import Idealize.ShloMosaic.Lib.Pipeline.Value

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen Cert.EdgeScore

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The score of edge $e$: the row score of row $e$ of the two gathered arrays, with the parameters as the call finds them. -/
def scoreOf (c : Dev nD) (e : Fin 262144) : EReal :=
  rowScore (fun k => (V c main_v16 : S262144x256.Idx → EReal) (ix2 e k)) (fun k => (V c main_v23 : S262144x256.Idx → EReal) (ix2 e k))
    (V c main_v39) (V c main_v41) (V c main_arg3) (V c main_v42) (V c main_arg5)

/-- The 262144 × 1 result as one function: entry $(e, 0)$ is the score of edge $e$. -/
def scores (c : Dev nD) : S262144x1.Idx → EReal := fun i => scoreOf V c (i 0)

/-- The printed index maps, decided over the 32 points: the two row windows move with the output window along the rows
    and sit at column block 0; the five parameter windows never move; the output window's row block is the point. -/
theorem idx_facts : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-- Row $y$ of the source-row window's block at point $t$ is row $e$ of the gathered source rows, $e$ being $y$ rows into the
    output block's rows. -/
theorem rows_src (c : Dev nD) (t : Fin cfg0.N) (y : Fin 8192) (k : Fin 256) (e : Fin 262144)
    (he : e.val = win0_7.index t (0 : Fin 2) * 8192 + 1 * y.val) :
    (iblk0 V c 0 t : S8192x256.Idx → EReal) (ix2 y k) = (V c main_v16 : S262144x256.Idx → EReal) (ix2 e k) := by
  obtain ⟨e00, e01, -⟩ := idx_facts t
  unfold iblk0
  rw [View.read_apply]
  show (V c main_v16 : S262144x256.Idx → EReal) (((cfg0.win 0).blk t).view.emb (ix2 y k)) = (V c main_v16 : S262144x256.Idx → EReal) (ix2 e k)
  refine congrArg (V c main_v16 : S262144x256.Idx → EReal) ?_
  funext a
  apply Fin.ext
  match a with
  | ⟨0, _⟩ => show win0_0.index t (0 : Fin 2) * 8192 + 1 * y.val = e.val; rw [e00, he]
  | ⟨1, _⟩ => show win0_0.index t (1 : Fin 2) * 256 + 1 * k.val = k.val; rw [e01]; omega

/-- The same for the destination-row window. -/
theorem rows_dst (c : Dev nD) (t : Fin cfg0.N) (y : Fin 8192) (k : Fin 256) (e : Fin 262144)
    (he : e.val = win0_7.index t (0 : Fin 2) * 8192 + 1 * y.val) :
    (iblk0 V c 1 t : S8192x256.Idx → EReal) (ix2 y k) = (V c main_v23 : S262144x256.Idx → EReal) (ix2 e k) := by
  obtain ⟨-, -, e10, e11, -⟩ := idx_facts t
  unfold iblk0
  rw [View.read_apply]
  show (V c main_v23 : S262144x256.Idx → EReal) (((cfg0.win 1).blk t).view.emb (ix2 y k)) = (V c main_v23 : S262144x256.Idx → EReal) (ix2 e k)
  refine congrArg (V c main_v23 : S262144x256.Idx → EReal) ?_
  funext a
  apply Fin.ext
  match a with
  | ⟨0, _⟩ => show win0_1.index t (0 : Fin 2) * 8192 + 1 * y.val = e.val; rw [e10, he]
  | ⟨1, _⟩ => show win0_1.index t (1 : Fin 2) * 256 + 1 * k.val = k.val; rw [e11]; omega

/-- Each parameter window's block, at every point, is its whole array: the block index is 0 on every axis. -/
theorem whole_2 (c : Dev nD) (t : Fin cfg0.N) : (iblk0 V c 2 t : S256x256.Idx → EReal) = V c main_v39 := by
  obtain ⟨-, -, -, -, e0, e1, -⟩ := idx_facts t
  unfold iblk0
  funext y
  rw [View.read_apply]
  show (V c main_v39 : S256x256.Idx → EReal) (((cfg0.win 2).blk t).view.emb y) = (V c main_v39 : S256x256.Idx → EReal) y
  refine congrArg (V c main_v39 : S256x256.Idx → EReal) ?_
  funext a
  apply Fin.ext
  match a with
  | ⟨0, _⟩ => show win0_2.index t (0 : Fin 2) * 256 + 1 * (y 0).val = (y 0).val; rw [e0]; omega
  | ⟨1, _⟩ => show win0_2.index t (1 : Fin 2) * 256 + 1 * (y 1).val = (y 1).val; rw [e1]; omega
theorem whole_3 (c : Dev nD) (t : Fin cfg0.N) : (iblk0 V c 3 t : S256x256.Idx → EReal) = V c main_v41 := by
  obtain ⟨-, -, -, -, -, -, e0, e1, -⟩ := idx_facts t
  unfold iblk0
  funext y
  rw [View.read_apply]
  show (V c main_v41 : S256x256.Idx → EReal) (((cfg0.win 3).blk t).view.emb y) = (V c main_v41 : S256x256.Idx → EReal) y
  refine congrArg (V c main_v41 : S256x256.Idx → EReal) ?_
  funext a
  apply Fin.ext
  match a with
  | ⟨0, _⟩ => show win0_3.index t (0 : Fin 2) * 256 + 1 * (y 0).val = (y 0).val; rw [e0]; omega
  | ⟨1, _⟩ => show win0_3.index t (1 : Fin 2) * 256 + 1 * (y 1).val = (y 1).val; rw [e1]; omega
theorem whole_4 (c : Dev nD) (t : Fin cfg0.N) : (iblk0 V c 4 t : S256.Idx → EReal) = V c main_arg3 := by
  obtain ⟨-, -, -, -, -, -, -, -, e0, -⟩ := idx_facts t
  unfold iblk0
  funext y
  rw [View.read_apply]
  show (V c main_arg3 : S256.Idx → EReal) (((cfg0.win 4).blk t).view.emb y) = (V c main_arg3 : S256.Idx → EReal) y
  refine congrArg (V c main_arg3 : S256.Idx → EReal) ?_
  funext a
  apply Fin.ext
  match a with
  | ⟨0, _⟩ => show win0_4.index t (0 : Fin 1) * 256 + 1 * (y 0).val = (y 0).val; rw [e0]; omega
theorem whole_5 (c : Dev nD) (t : Fin cfg0.N) : (iblk0 V c 5 t : S1x256.Idx → EReal) = V c main_v42 := by
  obtain ⟨-, -, -, -, -, -, -, -, -, e0, e1, -⟩ := idx_facts t
  unfold iblk0
  funext y
  rw [View.read_apply]
  show (V c main_v42 : S1x256.Idx → EReal) (((cfg0.win 5).blk t).view.emb y) = (V c main_v42 : S1x256.Idx → EReal) y
  refine congrArg (V c main_v42 : S1x256.Idx → EReal) ?_
  funext a
  apply Fin.ext
  match a with
  | ⟨0, _⟩ => show win0_5.index t (0 : Fin 2) * 1 + 1 * (y 0).val = (y 0).val; rw [e0]; omega
  | ⟨1, _⟩ => show win0_5.index t (1 : Fin 2) * 256 + 1 * (y 1).val = (y 1).val; rw [e1]; omega
theorem whole_6 (c : Dev nD) (t : Fin cfg0.N) : (iblk0 V c 6 t : S1.Idx → EReal) = V c main_arg5 := by
  obtain ⟨-, -, -, -, -, -, -, -, -, -, -, e0, -⟩ := idx_facts t
  unfold iblk0
  funext y
  rw [View.read_apply]
  show (V c main_arg5 : S1.Idx → EReal) (((cfg0.win 6).blk t).view.emb y) = (V c main_arg5 : S1.Idx → EReal) y
  refine congrArg (V c main_arg5 : S1.Idx → EReal) ?_
  funext a
  apply Fin.ext
  match a with
  | ⟨0, _⟩ => show win0_6.index t (0 : Fin 1) * 1 + 1 * (y 0).val = (y 0).val; rw [e0]; omega

/-- One entry of the body's store, from blocks known row by row (the two row blocks) or whole (the parameters): the score
    of the edge whose rows those are. -/
theorem stored_at (x0 x1 : FVec Ideal S8192x256 .bf16) (x2 x3 : FVec Ideal S256x256 .bf16) (x4 : FVec Ideal S256 .f32)
    (x5 : FVec Ideal S1x256 .f32) (x6 : FVec Ideal S1 .f32)
    (A0 A1 : S262144x256.Idx → EReal) (B2 B3 : FVec Ideal S256x256 .bf16) (B4 : FVec Ideal S256 .f32)
    (B5 : FVec Ideal S1x256 .f32) (B6 : FVec Ideal S1 .f32) (y : S8192x1.Idx) (e : Fin 262144)
    (h0 : ∀ k : Fin 256, x0 (ix2 (y 0) k) = A0 (ix2 e k)) (h1 : ∀ k : Fin 256, x1 (ix2 (y 0) k) = A1 (ix2 e k))
    (h2 : x2 = B2) (h3 : x3 = B3) (h4 : x4 = B4) (h5 : x5 = B5) (h6 : x6 = B6) :
    k0_pay1 (F := Ideal) x0 x1 x2 x3 x4 x5 x6 y
      = rowScore (fun k => A0 (ix2 e k)) (fun k => A1 (ix2 e k)) B2 B3 B4 B5 B6 := by
  subst h2 h3 h4 h5 h6
  have hf0 : (fun k : Fin 256 => x0 (ix2 (y 0) k)) = fun k => A0 (ix2 e k) := funext h0
  have hf1 : (fun k : Fin 256 => x1 (ix2 (y 0) k)) = fun k => A1 (ix2 e k) := funext h1
  calc k0_pay1 (F := Ideal) x0 x1 x2 x3 x4 x5 x6 y
      = k0_pay1 (F := Ideal) x0 x1 x2 x3 x4 x5 x6 (ix2 (y 0) (y 1)) := congrArg _ (eq_ix2 y)
    _ = rowScore (fun k => x0 (ix2 (y 0) k)) (fun k => x1 (ix2 (y 0) k)) x2 x3 x4 x5 x6 := Payload.pay_at x0 x1 x2 x3 x4 x5 x6 (y 0) (y 1)
    _ = rowScore (fun k => A0 (ix2 e k)) (fun k => A1 (ix2 e k)) x2 x3 x4 x5 x6 := by rw [hf0, hf1]

/-- What point $t$ writes back is block $t$ of \`scores\`. -/
theorem flushed_eq (c : Dev nD) (t : Fin cfg0.N) :
    (dat0 V c).flushed 7 t = ((cfg0.win 7).blk t).view.read (Elt Ideal) (scores V c) := by
  show (cfg0.win 7).cut (grid0.coords t) ((dat0 V c).after 7 t) = _
  rw [after0_7]
  unfold out0_7
  rw [View.canon_unit_zero hz2]
  simp only [View.ld_unit_zero (S := S8192x256) hz2, View.ld_unit_zero (S := S256x256) hz2, View.ld_unit_zero (S := S256) hz1,
    View.ld_unit_zero (S := S1x256) hz2, View.ld_unit_zero (S := S1) hz1]
  funext y
  rw [View.read_apply]
  show k0_pay1 (F := Ideal) (iblk0 V c 0 t) (iblk0 V c 1 t) (iblk0 V c 2 t) (iblk0 V c 3 t) (iblk0 V c 4 t) (iblk0 V c 5 t) (iblk0 V c 6 t) y
      = scoreOf V c ((((cfg0.win 7).blk t).view.emb y) 0)
  exact stored_at (iblk0 V c 0 t) (iblk0 V c 1 t) (iblk0 V c 2 t) (iblk0 V c 3 t) (iblk0 V c 4 t) (iblk0 V c 5 t) (iblk0 V c 6 t)
    (V c main_v16) (V c main_v23) (V c main_v39) (V c main_v41) (V c main_arg3) (V c main_v42) (V c main_arg5) y ((((cfg0.win 7).blk t).view.emb y) 0)
    (fun k => rows_src V c t (y 0) k _ rfl) (fun k => rows_dst V c t (y 0) k _ rfl)
    (whole_2 V c t) (whole_3 V c t) (whole_4 V c t) (whole_5 V c t) (whole_6 V c t)

/-- An index of the result is in point $t$'s block iff each coordinate is in the block's range on its axis. -/
theorem mem_blk (t : Fin cfg0.N) (i : S262144x1.Idx) :
    i ∈ ((cfg0.win 7).blk t).view.set ↔ ∀ a : Fin 2, win0_7.index t a * S8192x1.size a ≤ (i a).val ∧ (i a).val < win0_7.index t a * S8192x1.size a + S8192x1.size a := by
  show i ∈ ((View.whole main_v43).slice (win0_7.rect t)).set ↔ _
  rw [View.set_slice_whole, Rect.mem_set_unit]
  exact Iff.rfl

/-- The 32 blocks tile the result: row $e$ is in the block of point $e / 8192$. -/
theorem cover (i : S262144x1.Idx) : ∃ t : Fin cfg0.N, (cfg0.win 7).flush t = true ∧ i ∈ ((cfg0.win 7).blk t).view.set := by
  have hi0 : (i 0).val < 262144 := (i 0).isLt
  have hi1 : (i 1).val < 1 := (i 1).isLt
  have hN : cfg0.N = 32 := N_0
  have ht : (i 0).val / 8192 < cfg0.N := by rw [hN]; omega
  obtain ⟨-, -, -, -, -, -, -, -, -, -, -, -, e0, e1⟩ := idx_facts ⟨(i 0).val / 8192, ht⟩
  refine ⟨⟨(i 0).val / 8192, ht⟩, flush0_7 _, ?_⟩
  rw [mem_blk]
  intro a
  match a with
  | ⟨0, _⟩ =>
    show win0_7.index ⟨(i 0).val / 8192, ht⟩ (0 : Fin 2) * 8192 ≤ (i 0).val ∧ (i 0).val < win0_7.index ⟨(i 0).val / 8192, ht⟩ (0 : Fin 2) * 8192 + 8192
    rw [e0]
    show (i 0).val / 8192 * 8192 ≤ (i 0).val ∧ (i 0).val < (i 0).val / 8192 * 8192 + 8192
    omega
  | ⟨1, _⟩ =>
    show win0_7.index ⟨(i 0).val / 8192, ht⟩ (1 : Fin 2) * 1 ≤ (i 1).val ∧ (i 1).val < win0_7.index ⟨(i 0).val / 8192, ht⟩ (1 : Fin 2) * 1 + 1
    rw [e1]
    omega

/-- The result array after the call is \`scores\` of the arrays the call found. -/
theorem final (c : Dev nD) : (dat0 V c).arrAt 7 cfg0.N = scores V c :=
  (dat0 V c).arrAt_eq_of_cover 7 (scores V c) (fun t _ => flushed_eq V c t) cover

end Cert.KernelIdeal.Region0

end
-- ==== Proof.KernelRegion1.lean ====
/-
  The array the second call leaves, as one function of the arrays it finds.

  The call runs the scorer's body at 32 grid points. At point $t$ the two row windows hold rows $8192·t … 8192·t + 8191$
  of the gathered source rows and of the gathered destination rows; the five parameter windows hold their whole arrays at
  every point; and the output window's block is rows $8192·t … 8192·t + 8191$ of the 262144 × 1 result. So what point $t$
  writes back is that block of ONE function of the arrays — row $e$ is the edge score of row $e$ of the two gathered
  arrays — and the 32 blocks tile the result: row $e$ lies in the block of point $e / 8192$. The statement is for any
  contents \`V\` the call may find in its arrays.
-/
import proofs.«126227_j51041391345811_2_alg».proof.Proof.Gen.KernelIdeal.Frame
import proofs.«126227_j51041391345811_2_alg».proof.Proof.KernelPayload
import Idealize.ShloMosaic.Lib.Pipeline.Value

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen Cert.EdgeScore

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The score of edge $e$: the row score of row $e$ of the two gathered arrays, with the parameters as the call finds them. -/
def scoreOf (c : Dev nD) (e : Fin 262144) : EReal :=
  rowScore (fun k => (V c main_v30 : S262144x256.Idx → EReal) (ix2 e k)) (fun k => (V c main_v37 : S262144x256.Idx → EReal) (ix2 e k))
    (V c main_v39) (V c main_v41) (V c main_arg3) (V c main_v42) (V c main_arg5)

/-- The 262144 × 1 result as one function: entry $(e, 0)$ is the score of edge $e$. -/
def scores (c : Dev nD) : S262144x1.Idx → EReal := fun i => scoreOf V c (i 0)

/-- The printed index maps, decided over the 32 points: the two row windows move with the output window along the rows
    and sit at column block 0; the five parameter windows never move; the output window's row block is the point. -/
theorem idx_facts : ∀ t : Fin cfg1.N,
    win1_0.index t (0 : Fin 2) = win1_7.index t (0 : Fin 2) ∧ win1_0.index t (1 : Fin 2) = 0
    ∧ win1_1.index t (0 : Fin 2) = win1_7.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

/-- Row $y$ of the source-row window's block at point $t$ is row $e$ of the gathered source rows, $e$ being $y$ rows into the
    output block's rows. -/
theorem rows_src (c : Dev nD) (t : Fin cfg1.N) (y : Fin 8192) (k : Fin 256) (e : Fin 262144)
    (he : e.val = win1_7.index t (0 : Fin 2) * 8192 + 1 * y.val) :
    (iblk1 V c 0 t : S8192x256.Idx → EReal) (ix2 y k) = (V c main_v30 : S262144x256.Idx → EReal) (ix2 e k) := by
  obtain ⟨e00, e01, -⟩ := idx_facts t
  unfold iblk1
  rw [View.read_apply]
  show (V c main_v30 : S262144x256.Idx → EReal) (((cfg1.win 0).blk t).view.emb (ix2 y k)) = (V c main_v30 : S262144x256.Idx → EReal) (ix2 e k)
  refine congrArg (V c main_v30 : S262144x256.Idx → EReal) ?_
  funext a
  apply Fin.ext
  match a with
  | ⟨0, _⟩ => show win1_0.index t (0 : Fin 2) * 8192 + 1 * y.val = e.val; rw [e00, he]
  | ⟨1, _⟩ => show win1_0.index t (1 : Fin 2) * 256 + 1 * k.val = k.val; rw [e01]; omega

/-- The same for the destination-row window. -/
theorem rows_dst (c : Dev nD) (t : Fin cfg1.N) (y : Fin 8192) (k : Fin 256) (e : Fin 262144)
    (he : e.val = win1_7.index t (0 : Fin 2) * 8192 + 1 * y.val) :
    (iblk1 V c 1 t : S8192x256.Idx → EReal) (ix2 y k) = (V c main_v37 : S262144x256.Idx → EReal) (ix2 e k) := by
  obtain ⟨-, -, e10, e11, -⟩ := idx_facts t
  unfold iblk1
  rw [View.read_apply]
  show (V c main_v37 : S262144x256.Idx → EReal) (((cfg1.win 1).blk t).view.emb (ix2 y k)) = (V c main_v37 : S262144x256.Idx → EReal) (ix2 e k)
  refine congrArg (V c main_v37 : S262144x256.Idx → EReal) ?_
  funext a
  apply Fin.ext
  match a with
  | ⟨0, _⟩ => show win1_1.index t (0 : Fin 2) * 8192 + 1 * y.val = e.val; rw [e10, he]
  | ⟨1, _⟩ => show win1_1.index t (1 : Fin 2) * 256 + 1 * k.val = k.val; rw [e11]; omega

/-- Each parameter window's block, at every point, is its whole array: the block index is 0 on every axis. -/
theorem whole_2 (c : Dev nD) (t : Fin cfg1.N) : (iblk1 V c 2 t : S256x256.Idx → EReal) = V c main_v39 := by
  obtain ⟨-, -, -, -, e0, e1, -⟩ := idx_facts t
  unfold iblk1
  funext y
  rw [View.read_apply]
  show (V c main_v39 : S256x256.Idx → EReal) (((cfg1.win 2).blk t).view.emb y) = (V c main_v39 : S256x256.Idx → EReal) y
  refine congrArg (V c main_v39 : S256x256.Idx → EReal) ?_
  funext a
  apply Fin.ext
  match a with
  | ⟨0, _⟩ => show win1_2.index t (0 : Fin 2) * 256 + 1 * (y 0).val = (y 0).val; rw [e0]; omega
  | ⟨1, _⟩ => show win1_2.index t (1 : Fin 2) * 256 + 1 * (y 1).val = (y 1).val; rw [e1]; omega
theorem whole_3 (c : Dev nD) (t : Fin cfg1.N) : (iblk1 V c 3 t : S256x256.Idx → EReal) = V c main_v41 := by
  obtain ⟨-, -, -, -, -, -, e0, e1, -⟩ := idx_facts t
  unfold iblk1
  funext y
  rw [View.read_apply]
  show (V c main_v41 : S256x256.Idx → EReal) (((cfg1.win 3).blk t).view.emb y) = (V c main_v41 : S256x256.Idx → EReal) y
  refine congrArg (V c main_v41 : S256x256.Idx → EReal) ?_
  funext a
  apply Fin.ext
  match a with
  | ⟨0, _⟩ => show win1_3.index t (0 : Fin 2) * 256 + 1 * (y 0).val = (y 0).val; rw [e0]; omega
  | ⟨1, _⟩ => show win1_3.index t (1 : Fin 2) * 256 + 1 * (y 1).val = (y 1).val; rw [e1]; omega
theorem whole_4 (c : Dev nD) (t : Fin cfg1.N) : (iblk1 V c 4 t : S256.Idx → EReal) = V c main_arg3 := by
  obtain ⟨-, -, -, -, -, -, -, -, e0, -⟩ := idx_facts t
  unfold iblk1
  funext y
  rw [View.read_apply]
  show (V c main_arg3 : S256.Idx → EReal) (((cfg1.win 4).blk t).view.emb y) = (V c main_arg3 : S256.Idx → EReal) y
  refine congrArg (V c main_arg3 : S256.Idx → EReal) ?_
  funext a
  apply Fin.ext
  match a with
  | ⟨0, _⟩ => show win1_4.index t (0 : Fin 1) * 256 + 1 * (y 0).val = (y 0).val; rw [e0]; omega
theorem whole_5 (c : Dev nD) (t : Fin cfg1.N) : (iblk1 V c 5 t : S1x256.Idx → EReal) = V c main_v42 := by
  obtain ⟨-, -, -, -, -, -, -, -, -, e0, e1, -⟩ := idx_facts t
  unfold iblk1
  funext y
  rw [View.read_apply]
  show (V c main_v42 : S1x256.Idx → EReal) (((cfg1.win 5).blk t).view.emb y) = (V c main_v42 : S1x256.Idx → EReal) y
  refine congrArg (V c main_v42 : S1x256.Idx → EReal) ?_
  funext a
  apply Fin.ext
  match a with
  | ⟨0, _⟩ => show win1_5.index t (0 : Fin 2) * 1 + 1 * (y 0).val = (y 0).val; rw [e0]; omega
  | ⟨1, _⟩ => show win1_5.index t (1 : Fin 2) * 256 + 1 * (y 1).val = (y 1).val; rw [e1]; omega
theorem whole_6 (c : Dev nD) (t : Fin cfg1.N) : (iblk1 V c 6 t : S1.Idx → EReal) = V c main_arg5 := by
  obtain ⟨-, -, -, -, -, -, -, -, -, -, -, e0, -⟩ := idx_facts t
  unfold iblk1
  funext y
  rw [View.read_apply]
  show (V c main_arg5 : S1.Idx → EReal) (((cfg1.win 6).blk t).view.emb y) = (V c main_arg5 : S1.Idx → EReal) y
  refine congrArg (V c main_arg5 : S1.Idx → EReal) ?_
  funext a
  apply Fin.ext
  match a with
  | ⟨0, _⟩ => show win1_6.index t (0 : Fin 1) * 1 + 1 * (y 0).val = (y 0).val; rw [e0]; omega

/-- One entry of the body's store, from blocks known row by row (the two row blocks) or whole (the parameters): the score
    of the edge whose rows those are. -/
theorem stored_at (x0 x1 : FVec Ideal S8192x256 .bf16) (x2 x3 : FVec Ideal S256x256 .bf16) (x4 : FVec Ideal S256 .f32)
    (x5 : FVec Ideal S1x256 .f32) (x6 : FVec Ideal S1 .f32)
    (A0 A1 : S262144x256.Idx → EReal) (B2 B3 : FVec Ideal S256x256 .bf16) (B4 : FVec Ideal S256 .f32)
    (B5 : FVec Ideal S1x256 .f32) (B6 : FVec Ideal S1 .f32) (y : S8192x1.Idx) (e : Fin 262144)
    (h0 : ∀ k : Fin 256, x0 (ix2 (y 0) k) = A0 (ix2 e k)) (h1 : ∀ k : Fin 256, x1 (ix2 (y 0) k) = A1 (ix2 e k))
    (h2 : x2 = B2) (h3 : x3 = B3) (h4 : x4 = B4) (h5 : x5 = B5) (h6 : x6 = B6) :
    k1_pay1 (F := Ideal) x0 x1 x2 x3 x4 x5 x6 y
      = rowScore (fun k => A0 (ix2 e k)) (fun k => A1 (ix2 e k)) B2 B3 B4 B5 B6 := by
  subst h2 h3 h4 h5 h6
  have hf0 : (fun k : Fin 256 => x0 (ix2 (y 0) k)) = fun k => A0 (ix2 e k) := funext h0
  have hf1 : (fun k : Fin 256 => x1 (ix2 (y 0) k)) = fun k => A1 (ix2 e k) := funext h1
  calc k1_pay1 (F := Ideal) x0 x1 x2 x3 x4 x5 x6 y
      = k0_pay1 (F := Ideal) x0 x1 x2 x3 x4 x5 x6 (ix2 (y 0) (y 1)) := congrArg _ (eq_ix2 y)
    _ = rowScore (fun k => x0 (ix2 (y 0) k)) (fun k => x1 (ix2 (y 0) k)) x2 x3 x4 x5 x6 := Payload.pay_at x0 x1 x2 x3 x4 x5 x6 (y 0) (y 1)
    _ = rowScore (fun k => A0 (ix2 e k)) (fun k => A1 (ix2 e k)) x2 x3 x4 x5 x6 := by rw [hf0, hf1]

/-- What point $t$ writes back is block $t$ of \`scores\`. -/
theorem flushed_eq (c : Dev nD) (t : Fin cfg1.N) :
    (dat1 V c).flushed 7 t = ((cfg1.win 7).blk t).view.read (Elt Ideal) (scores V c) := by
  show (cfg1.win 7).cut (grid1.coords t) ((dat1 V c).after 7 t) = _
  rw [after1_7]
  unfold out1_7
  rw [View.canon_unit_zero hz2]
  simp only [View.ld_unit_zero (S := S8192x256) hz2, View.ld_unit_zero (S := S256x256) hz2, View.ld_unit_zero (S := S256) hz1,
    View.ld_unit_zero (S := S1x256) hz2, View.ld_unit_zero (S := S1) hz1]
  funext y
  rw [View.read_apply]
  show k1_pay1 (F := Ideal) (iblk1 V c 0 t) (iblk1 V c 1 t) (iblk1 V c 2 t) (iblk1 V c 3 t) (iblk1 V c 4 t) (iblk1 V c 5 t) (iblk1 V c 6 t) y
      = scoreOf V c ((((cfg1.win 7).blk t).view.emb y) 0)
  exact stored_at (iblk1 V c 0 t) (iblk1 V c 1 t) (iblk1 V c 2 t) (iblk1 V c 3 t) (iblk1 V c 4 t) (iblk1 V c 5 t) (iblk1 V c 6 t)
    (V c main_v30) (V c main_v37) (V c main_v39) (V c main_v41) (V c main_arg3) (V c main_v42) (V c main_arg5) y ((((cfg1.win 7).blk t).view.emb y) 0)
    (fun k => rows_src V c t (y 0) k _ rfl) (fun k => rows_dst V c t (y 0) k _ rfl)
    (whole_2 V c t) (whole_3 V c t) (whole_4 V c t) (whole_5 V c t) (whole_6 V c t)

/-- An index of the result is in point $t$'s block iff each coordinate is in the block's range on its axis. -/
theorem mem_blk (t : Fin cfg1.N) (i : S262144x1.Idx) :
    i ∈ ((cfg1.win 7).blk t).view.set ↔ ∀ a : Fin 2, win1_7.index t a * S8192x1.size a ≤ (i a).val ∧ (i a).val < win1_7.index t a * S8192x1.size a + S8192x1.size a := by
  show i ∈ ((View.whole main_v45).slice (win1_7.rect t)).set ↔ _
  rw [View.set_slice_whole, Rect.mem_set_unit]
  exact Iff.rfl

/-- The 32 blocks tile the result: row $e$ is in the block of point $e / 8192$. -/
theorem cover (i : S262144x1.Idx) : ∃ t : Fin cfg1.N, (cfg1.win 7).flush t = true ∧ i ∈ ((cfg1.win 7).blk t).view.set := by
  have hi0 : (i 0).val < 262144 := (i 0).isLt
  have hi1 : (i 1).val < 1 := (i 1).isLt
  have hN : cfg1.N = 32 := N_1
  have ht : (i 0).val / 8192 < cfg1.N := by rw [hN]; omega
  obtain ⟨-, -, -, -, -, -, -, -, -, -, -, -, e0, e1⟩ := idx_facts ⟨(i 0).val / 8192, ht⟩
  refine ⟨⟨(i 0).val / 8192, ht⟩, flush1_7 _, ?_⟩
  rw [mem_blk]
  intro a
  match a with
  | ⟨0, _⟩ =>
    show win1_7.index ⟨(i 0).val / 8192, ht⟩ (0 : Fin 2) * 8192 ≤ (i 0).val ∧ (i 0).val < win1_7.index ⟨(i 0).val / 8192, ht⟩ (0 : Fin 2) * 8192 + 8192
    rw [e0]
    show (i 0).val / 8192 * 8192 ≤ (i 0).val ∧ (i 0).val < (i 0).val / 8192 * 8192 + 8192
    omega
  | ⟨1, _⟩ =>
    show win1_7.index ⟨(i 0).val / 8192, ht⟩ (1 : Fin 2) * 1 ≤ (i 1).val ∧ (i 1).val < win1_7.index ⟨(i 0).val / 8192, ht⟩ (1 : Fin 2) * 1 + 1
    rw [e1]
    omega

/-- The result array after the call is \`scores\` of the arrays the call found. -/
theorem final (c : Dev nD) : (dat1 V c).arrAt 7 cfg1.N = scores V c :=
  (dat1 V c).arrAt_eq_of_cover 7 (scores V c) (fun t _ => flushed_eq V c t) cover

end Cert.KernelIdeal.Region1

end
-- ==== Proof.LibSqueezeColumn.lean ====
/-
  A column read as a vector: an \`[a, 1]\` array cast to \`[a]\` reads, at \`i\`, the column at \`(i, 0)\`. (The row form,
  \`[1, a] → [a]\`, is in the library's layout file; this is its transpose, proved the same way.) General: nothing here
  mentions a program.
-/
import Idealize.ShloMosaic.Lib.Pipeline.Value
import Idealize.ShloMosaic.Lib.ValueIdx

namespace Cert.LibSqueezeColumn

open Idealize.ShloMosaic Idealize.ShloMosaic.ValueIdx

variable {α : Type}

/-- An \`[a, 1]\` array cast to \`[a]\` reads, at \`i\`, the operand at \`(i, 0)\`: the row-major positions agree,
    \`i · 1 + 0 = i\`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.LibSqueezeColumn
-- ==== Proof.KernelResults.lean ====
/-
  The two results of the whole program, as functions of its arguments.

  Before the first call the host slices each index array into its two rows, wraps negative indices (an index below zero
  counts from the end: 100000 is added), gathers the node rows at those indices, cuts the first layer's weights into their
  upper and lower 256 rows, and transposes the second layer's weights into a row. Neither call writes anything the other
  reads, so the second call finds the arrays the first one found. Each call leaves a 262144 × 1 array of scores, which one
  reshape turns into the vector the program returns. Read through those host operations — a cut of rows $0 … 255$ reads
  row $k$, a cut of rows $256 … 511$ reads row $256 + k$, the transposed column reads $W_2[j, 0]$ — each result is the
  edge score of the gathered rows and the parameters as the caller passed them.
-/
import proofs.«126227_j51041391345811_2_alg».proof.Proof.KernelWhole
import proofs.«126227_j51041391345811_2_alg».proof.Proof.KernelRegion0
import proofs.«126227_j51041391345811_2_alg».proof.Proof.KernelRegion1
import proofs.«126227_j51041391345811_2_alg».proof.Proof.LibSqueezeColumn
import Idealize.ShloMosaic.Lib.StableHlo.Run
import Idealize.ShloMosaic.Lib.ValueLayout

noncomputable section

namespace Cert.KernelIdeal.Results

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.EdgeScore

/-! ## The host operations before the first call, named -/

/-- Row 0 of a 2 × 262144 index array, as a vector: the source indices. -/
def indexRow0 (E : (⟨S2x262144, .i32⟩ : BufTy).Contents (Elt Ideal)) : (⟨S262144, .i32⟩ : BufTy).Contents (Elt Ideal) :=
  shapeCast S262144 (extractStridedSlice S1x262144 ![0, 0] E slices_S2x262144_S1x262144_0_0) shapeCasts_S1x262144_S262144
/-- Row 1: the destination indices. -/
def indexRow1 (E : (⟨S2x262144, .i32⟩ : BufTy).Contents (Elt Ideal)) : (⟨S262144, .i32⟩ : BufTy).Contents (Elt Ideal) :=
  shapeCast S262144 (extractStridedSlice S1x262144 ![1, 0] E slices_S2x262144_S1x262144_1_0) shapeCasts_S1x262144_S262144
/-- Indices with the negative ones counted from the end (100000 added), as a column of start indices. -/
def wrapped (v : (⟨S262144, .i32⟩ : BufTy).Contents (Elt Ideal)) : (⟨S262144x1, .i32⟩ : BufTy).Contents (Elt Ideal) :=
  broadcastInDim S262144x1 ![0] bcast_S262144_S262144x1_0
    (select (cmpi .slt v (broadcastInDim S262144 ![] bcast_S_S262144 (constantI S_ 32 0#32)))
      (addi v (broadcastInDim S262144 ![] bcast_S_S262144 (constantI S_ 32 100000#32))) v)
/-- The node rows at the wrapped indices (the node array first narrowed to the short float format, which changes no value). -/
def gatherRows (X : (⟨S100000x256, .f32⟩ : BufTy).Contents (Elt Ideal)) (v : (⟨S262144, .i32⟩ : BufTy).Contents (Elt Ideal)) :
    (⟨S262144x256, .bf16⟩ : BufTy).Contents (Elt Ideal) :=
  Host.gather gather_S100000x256_S262144x1_S262144x256_1_0_n_n_0_1_1256 (truncf (F := Ideal) .bf16 X bitsLt_bf16_f32) (wrapped v)
/-- The upper 256 rows of the first layer's weights. -/
def upperHalf (W : (⟨S512x256, .f32⟩ : BufTy).Contents (Elt Ideal)) : (⟨S256x256, .bf16⟩ : BufTy).Contents (Elt Ideal) :=
  truncf (F := Ideal) .bf16 (extractStridedSlice S256x256 ![0, 0] W slices_S512x256_S256x256_0_0) bitsLt_bf16_f32
/-- The lower 256 rows. -/
def lowerHalf (W : (⟨S512x256, .f32⟩ : BufTy).Contents (Elt Ideal)) : (⟨S256x256, .bf16⟩ : BufTy).Contents (Elt Ideal) :=
  truncf (F := Ideal) .bf16 (extractStridedSlice S256x256 ![256, 0] W slices_S512x256_S256x256_256_0) bitsLt_bf16_f32
/-- The second layer's weights as a row. -/
def asRow (W : (⟨S256x1, .f32⟩ : BufTy).Contents (Elt Ideal)) : (⟨S1x256, .f32⟩ : BufTy).Contents (Elt Ideal) :=
  transpose S1x256 [1, 0] W transposes_S256x1_S1x256_1_0

variable (m : (ℓ : Loc nD τ sig) → Buf (Elt Ideal) ℓ) (ρ : Dev nD → PrngReg)

/-! ## What the first call finds -/

theorem at1_v16 (c : Dev nD) : W1 m ρ c (Proc.devRef .tc main_v16)
    = gatherRows (m ((c : Thread nD τ).loc main_arg0)) (indexRow0 (m ((c : Thread nD τ).loc main_arg6))) := by
  show StableHlo.after hostOps0 (W0 m ρ c) (Proc.devRef .tc main_v16) = _
  after_results_simp <;> rfl
theorem at1_v23 (c : Dev nD) : W1 m ρ c (Proc.devRef .tc main_v23)
    = gatherRows (m ((c : Thread nD τ).loc main_arg1)) (indexRow1 (m ((c : Thread nD τ).loc main_arg6))) := by
  show StableHlo.after hostOps0 (W0 m ρ c) (Proc.devRef .tc main_v23) = _
  after_results_simp <;> rfl
theorem at1_v30 (c : Dev nD) : W1 m ρ c (Proc.devRef .tc main_v30)
    = gatherRows (m ((c : Thread nD τ).loc main_arg0)) (indexRow0 (m ((c : Thread nD τ).loc main_arg7))) := by
  show StableHlo.after hostOps0 (W0 m ρ c) (Proc.devRef .tc main_v30) = _
  after_results_simp <;> rfl
theorem at1_v37 (c : Dev nD) : W1 m ρ c (Proc.devRef .tc main_v37)
    = gatherRows (m ((c : Thread nD τ).loc main_arg1)) (indexRow1 (m ((c : Thread nD τ).loc main_arg7))) := by
  show StableHlo.after hostOps0 (W0 m ρ c) (Proc.devRef .tc main_v37) = _
  after_results_simp <;> rfl
theorem at1_v39 (c : Dev nD) : W1 m ρ c (Proc.devRef .tc main_v39) = upperHalf (m ((c : Thread nD τ).loc main_arg2)) := by
  show StableHlo.after hostOps0 (W0 m ρ c) (Proc.devRef .tc main_v39) = _
  after_results_simp <;> rfl
theorem at1_v41 (c : Dev nD) : W1 m ρ c (Proc.devRef .tc main_v41) = lowerHalf (m ((c : Thread nD τ).loc main_arg2)) := by
  show StableHlo.after hostOps0 (W0 m ρ c) (Proc.devRef .tc main_v41) = _
  after_results_simp <;> rfl
theorem at1_v42 (c : Dev nD) : W1 m ρ c (Proc.devRef .tc main_v42) = asRow (m ((c : Thread nD τ).loc main_arg4)) := by
  show StableHlo.after hostOps0 (W0 m ρ c) (Proc.devRef .tc main_v42) = _
  after_results_simp <;> rfl
theorem at1_arg3 (c : Dev nD) : W1 m ρ c (Proc.devRef .tc main_arg3) = m ((c : Thread nD τ).loc main_arg3) := by
  show StableHlo.after hostOps0 (W0 m ρ c) (Proc.devRef .tc main_arg3) = _
  after_results_simp <;> rfl
theorem at1_arg5 (c : Dev nD) : W1 m ρ c (Proc.devRef .tc main_arg5) = m ((c : Thread nD τ).loc main_arg5) := by
  show StableHlo.after hostOps0 (W0 m ρ c) (Proc.devRef .tc main_arg5) = _
  after_results_simp <;> rfl

/-! ## What the second call finds: what the first one found -/

/-- An input window's array leaves the first call as it entered. -/
theorem at2_input (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))

/-- The reshape between the calls writes only the first result; the two gathered arrays of the second call are no array of
    the first; the five parameter arrays are input windows of the first. -/
theorem at3_v30 (c : Dev nD) : W3 m ρ c (Proc.devRef .tc main_v30) = W1 m ρ c (Proc.devRef .tc main_v30) := by
  have h : W3 m ρ c (Proc.devRef .tc main_v30) = W2 m ρ c (Proc.devRef .tc main_v30) := by
    show StableHlo.after hostOps1 (W2 m ρ c) (Proc.devRef .tc main_v30) = _
    after_results
  exact h.trans (W2_of_ne m ρ c main_v30 (by decide))
theorem at3_v37 (c : Dev nD) : W3 m ρ c (Proc.devRef .tc main_v37) = W1 m ρ c (Proc.devRef .tc main_v37) := by
  have h : W3 m ρ c (Proc.devRef .tc main_v37) = W2 m ρ c (Proc.devRef .tc main_v37) := by
    show StableHlo.after hostOps1 (W2 m ρ c) (Proc.devRef .tc main_v37) = _
    after_results
  exact h.trans (W2_of_ne m ρ c main_v37 (by decide))
theorem at3_v39 (c : Dev nD) : W3 m ρ c (Proc.devRef .tc main_v39) = W1 m ρ c (Proc.devRef .tc main_v39) := by
  have h : W3 m ρ c (Proc.devRef .tc main_v39) = W2 m ρ c (Proc.devRef .tc main_v39) := by
    show StableHlo.after hostOps1 (W2 m ρ c) (Proc.devRef .tc main_v39) = _
    after_results
  exact h.trans (at2_input m ρ c 2 rfl)
theorem at3_v41 (c : Dev nD) : W3 m ρ c (Proc.devRef .tc main_v41) = W1 m ρ c (Proc.devRef .tc main_v41) := by
  have h : W3 m ρ c (Proc.devRef .tc main_v41) = W2 m ρ c (Proc.devRef .tc main_v41) := by
    show StableHlo.after hostOps1 (W2 m ρ c) (Proc.devRef .tc main_v41) = _
    after_results
  exact h.trans (at2_input m ρ c 3 rfl)
theorem at3_arg3 (c : Dev nD) : W3 m ρ c (Proc.devRef .tc main_arg3) = W1 m ρ c (Proc.devRef .tc main_arg3) := by
  have h : W3 m ρ c (Proc.devRef .tc main_arg3) = W2 m ρ c (Proc.devRef .tc main_arg3) := by
    show StableHlo.after hostOps1 (W2 m ρ c) (Proc.devRef .tc main_arg3) = _
    after_results
  exact h.trans (at2_input m ρ c 4 rfl)
theorem at3_v42 (c : Dev nD) : W3 m ρ c (Proc.devRef .tc main_v42) = W1 m ρ c (Proc.devRef .tc main_v42) := by
  have h : W3 m ρ c (Proc.devRef .tc main_v42) = W2 m ρ c (Proc.devRef .tc main_v42) := by
    show StableHlo.after hostOps1 (W2 m ρ c) (Proc.devRef .tc main_v42) = _
    after_results
  exact h.trans (at2_input m ρ c 5 rfl)
theorem at3_arg5 (c : Dev nD) : W3 m ρ c (Proc.devRef .tc main_arg5) = W1 m ρ c (Proc.devRef .tc main_arg5) := by
  have h : W3 m ρ c (Proc.devRef .tc main_arg5) = W2 m ρ c (Proc.devRef .tc main_arg5) := by
    show StableHlo.after hostOps1 (W2 m ρ c) (Proc.devRef .tc main_arg5) = _
    after_results
  exact h.trans (at2_input m ρ c 6 rfl)

/-! ## A call's scores through the host operations -/

/-- The row score with the weights as the host cut and turned them is the edge score's summand structure over the
    parameters as passed: row $k$ of the upper cut is row $k$ of $W_1$, row $k$ of the lower cut is row $256 + k$, and the
    turned column at $(0, j)$ is $W_2[j, 0]$. -/
theorem rowScore_params (xs xd : Fin 256 → EReal) (W1 : (⟨S512x256, .f32⟩ : BufTy).Contents (Elt Ideal))
    (b1 : (⟨S256, .f32⟩ : BufTy).Contents (Elt Ideal)) (W2 : (⟨S256x1, .f32⟩ : BufTy).Contents (Elt Ideal))
    (b2 : (⟨S1, .f32⟩ : BufTy).Contents (Elt Ideal)) :
    rowScore xs xd (upperHalf W1) (lowerHalf W1) b1 (asRow W2) b2
      = (∑ j : Fin 256, max ((∑ k : Fin 256, xs k * W1 (ix2 (lo k) j)) + (∑ k : Fin 256, xd k * W1 (ix2 (hi k) j)) + b1 (ix1 j)) zeroWord
          * W2 (ix2 j (0 : Fin 1)))
        + b2 (ix1 (0 : Fin 1)) := by
  unfold rowScore
  refine congrArg (· + b2 (ix1 (0 : Fin 1))) (Finset.sum_congr rfl fun j _ => ?_)
  have hu : ∀ k : Fin 256, upperHalf W1 (ix2 k j) = W1 (ix2 (lo k) j) := fun k =>
    slice2_axis0_apply 0 W1 slices_S512x256_S256x256_0_0 k j (lo k) (by show k.val = 0 + k.val; omega)
  have hl : ∀ k : Fin 256, lowerHalf W1 (ix2 k j) = W1 (ix2 (hi k) j) := fun k =>
    slice2_axis0_apply 256 W1 slices_S512x256_S256x256_256_0 k j (hi k) rfl
  have ht : asRow W2 (ix2 (0 : Fin 1) j) = W2 (ix2 j (0 : Fin 1)) := transpose_ix2_apply W2 transposes_S256x1_S1x256_1_0 0 j
  rw [ht]
  simp only [hu, hl]

/-- The scores of all edges from two gathered arrays and the parameters as passed. -/
def scoresOf (xs xd : (⟨S262144x256, .bf16⟩ : BufTy).Contents (Elt Ideal)) (W1 : (⟨S512x256, .f32⟩ : BufTy).Contents (Elt Ideal))
    (b1 : (⟨S256, .f32⟩ : BufTy).Contents (Elt Ideal)) (W2 : (⟨S256x1, .f32⟩ : BufTy).Contents (Elt Ideal))
    (b2 : (⟨S1, .f32⟩ : BufTy).Contents (Elt Ideal)) : (⟨S262144, .f32⟩ : BufTy).Contents (Elt Ideal) :=
  edgeScore xs xd W1 b1 W2 b2

/-- The positive edges' scores: the source rows at row 0 of the first index array, the destination rows at its row 1. -/
def posScores (c : Dev nD) : (⟨S262144, .f32⟩ : BufTy).Contents (Elt Ideal) :=
  scoresOf (gatherRows (m ((c : Thread nD τ).loc main_arg0)) (indexRow0 (m ((c : Thread nD τ).loc main_arg6))))
    (gatherRows (m ((c : Thread nD τ).loc main_arg1)) (indexRow1 (m ((c : Thread nD τ).loc main_arg6))))
    (m ((c : Thread nD τ).loc main_arg2)) (m ((c : Thread nD τ).loc main_arg3)) (m ((c : Thread nD τ).loc main_arg4)) (m ((c : Thread nD τ).loc main_arg5))
/-- The negative edges' scores: the same with the second index array. -/
def negScores (c : Dev nD) : (⟨S262144, .f32⟩ : BufTy).Contents (Elt Ideal) :=
  scoresOf (gatherRows (m ((c : Thread nD τ).loc main_arg0)) (indexRow0 (m ((c : Thread nD τ).loc main_arg7))))
    (gatherRows (m ((c : Thread nD τ).loc main_arg1)) (indexRow1 (m ((c : Thread nD τ).loc main_arg7))))
    (m ((c : Thread nD τ).loc main_arg2)) (m ((c : Thread nD τ).loc main_arg3)) (m ((c : Thread nD τ).loc main_arg4)) (m ((c : Thread nD τ).loc main_arg5))

/-- The column of scores a call leaves, read as a vector, is \`scoresOf\` of what the call found — stated for the pieces a
    call's array function is made of, so that it serves both calls. -/
theorem squeezed (S : S262144x1.Idx → EReal) (xs xd : (⟨S262144x256, .bf16⟩ : BufTy).Contents (Elt Ideal))
    (W1 : (⟨S512x256, .f32⟩ : BufTy).Contents (Elt Ideal)) (b1 : (⟨S256, .f32⟩ : BufTy).Contents (Elt Ideal))
    (W2 : (⟨S256x1, .f32⟩ : BufTy).Contents (Elt Ideal)) (b2 : (⟨S1, .f32⟩ : BufTy).Contents (Elt Ideal))
    (hS : ∀ e : Fin 262144, S (ix2 e (0 : Fin 1))
      = rowScore (fun k => xs (ix2 e k)) (fun k => xd (ix2 e k)) (upperHalf W1) (lowerHalf W1) b1 (asRow W2) b2) :
    shapeCast S262144 S shapeCasts_S262144x1_S262144 = scoresOf xs xd W1 b1 W2 b2 := by
  funext i
  obtain ⟨e, rfl⟩ : ∃ e : Fin 262144, i = ix1 e := ⟨i 0, eq_ix1 i⟩
  exact (Cert.LibSqueezeColumn.shapeCast_a1_a_apply S shapeCasts_S262144x1_S262144 e).trans ((hS e).trans (rowScore_params _ _ W1 b1 W2 b2))

/-! ## The two results -/

theorem first_result (c : Dev nD) : W5 m ρ c (Proc.devRef .tc main_v44) = posScores m c := by
  have h5 : W5 m ρ c (Proc.devRef .tc main_v44) = W4 m ρ c (Proc.devRef .tc main_v44) := by
    show StableHlo.after hostOps2 (W4 m ρ c) (Proc.devRef .tc main_v44) = _
    after_results
  have h4 : W4 m ρ c (Proc.devRef .tc main_v44) = W3 m ρ c (Proc.devRef .tc main_v44) := W4_of_ne m ρ c main_v44 (by decide)
  have h3 : W3 m ρ c (Proc.devRef .tc main_v44)
      = shapeCast S262144 (W2 m ρ c (Proc.devRef .tc main_v43) : S262144x1.Idx → EReal) shapeCasts_S262144x1_S262144 := by
    show StableHlo.after hostOps1 (W2 m ρ c) (Proc.devRef .tc main_v44) = _
    after_results
    rfl
  have h2 : (W2 m ρ c (Proc.devRef .tc main_v43) : S262144x1.Idx → EReal) = Region0.scores (V1 m ρ) c :=
    (W2_arr m ρ c 7).trans (Region0.final (V1 m ρ) c)
  rw [h5, h4, h3, h2]
  refine squeezed _ _ _ _ _ _ _ fun e => ?_
  show Region0.scoreOf (V1 m ρ) c e = _
  unfold Region0.scoreOf
  show rowScore (fun k => (W1 m ρ c (Proc.devRef .tc main_v16) : S262144x256.Idx → EReal) (ix2 e k))
      (fun k => (W1 m ρ c (Proc.devRef .tc main_v23) : S262144x256.Idx → EReal) (ix2 e k))
      (W1 m ρ c (Proc.devRef .tc main_v39)) (W1 m ρ c (Proc.devRef .tc main_v41)) (W1 m ρ c (Proc.devRef .tc main_arg3))
      (W1 m ρ c (Proc.devRef .tc main_v42)) (W1 m ρ c (Proc.devRef .tc main_arg5)) = _
  rw [at1_v16, at1_v23, at1_v39, at1_v41, at1_arg3, at1_v42, at1_arg5]

theorem second_result (c : Dev nD) : W5 m ρ c (Proc.devRef .tc main_v46) = negScores m c := by
  have h5 : W5 m ρ c (Proc.devRef .tc main_v46)
      = shapeCast S262144 (W4 m ρ c (Proc.devRef .tc main_v45) : S262144x1.Idx → EReal) shapeCasts_S262144x1_S262144 := by
    show StableHlo.after hostOps2 (W4 m ρ c) (Proc.devRef .tc main_v46) = _
    after_results
    rfl
  have h4 : (W4 m ρ c (Proc.devRef .tc main_v45) : S262144x1.Idx → EReal) = Region1.scores (V3 m ρ) c :=
    (W4_arr m ρ c 7).trans (Region1.final (V3 m ρ) c)
  rw [h5, h4]
  refine squeezed _ _ _ _ _ _ _ fun e => ?_
  show Region1.scoreOf (V3 m ρ) c e = _
  unfold Region1.scoreOf
  show rowScore (fun k => (W3 m ρ c (Proc.devRef .tc main_v30) : S262144x256.Idx → EReal) (ix2 e k))
      (fun k => (W3 m ρ c (Proc.devRef .tc main_v37) : S262144x256.Idx → EReal) (ix2 e k))
      (W3 m ρ c (Proc.devRef .tc main_v39)) (W3 m ρ c (Proc.devRef .tc main_v41)) (W3 m ρ c (Proc.devRef .tc main_arg3))
      (W3 m ρ c (Proc.devRef .tc main_v42)) (W3 m ρ c (Proc.devRef .tc main_arg5)) = _
  rw [at3_v30, at3_v37, at3_v39, at3_v41, at3_arg3, at3_v42, at3_arg5,
    at1_v30, at1_v37, at1_v39, at1_v41, at1_arg3, at1_v42, at1_arg5]

/-! ## The run, read -/

/-- Every weakly fair execution terminates without a fault; the two results are the positive and the negative edges'
    scores, and the eight arguments end as launched. -/
theorem run : θ_run defs (onTc (τ := τ) (main (F := Ideal))) ⟨m, fun _ => 0, ρ⟩ (fun r => ∀ c : Dev nD,
      r.2.mem ((c.tc : Thread nD τ).loc main_v44) = posScores m c
      ∧ r.2.mem ((c.tc : Thread nD τ).loc main_v46) = negScores m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨(h c _ (mem_uc main_v44 (by decide))).trans (first_result m ρ c),
       (h c _ (mem_uc main_v46 (by decide))).trans (second_result m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)
    (Whole.run_all m ρ)

end Cert.KernelIdeal.Results

end
-- ==== Proof.ReferenceScores.lean ====
/-
  The reference's two results, as the edge score of its gathered rows.

  The reference joins each edge's source row and destination row into one row of 512, multiplies by $W_1$, adds $b_1$,
  rectifies, multiplies by the column $W_2$, adds $b_2$ and drops the unit axis. Read index by index: position $k < 256$ of
  the joined row is the source row's $k$, position $256 + k$ is the destination row's $k$; so the 512-term sum against
  column $j$ of $W_1$ is the source row against rows $0 … 255$ of $W_1$ plus the destination row against rows $256 … 511$.
  That is the edge score.
-/
import proofs.«126227_j51041391345811_2_alg».proof.Proof.Gen.ReferenceIdeal.Read
import proofs.«126227_j51041391345811_2_alg».proof.Proof.EdgeScore
import Idealize.ShloMosaic.Lib.Pipeline.Value

noncomputable section

namespace Cert.ReferenceIdeal.Scores

open Idealize.ShloMosaic Idealize.ShloMosaic.ValueIdx
open Cert.ReferenceIdeal Cert.ReferenceIdeal.Gen Cert.ReferenceIdeal.Read Cert.EdgeScore

/-- Two arrays of 256-wide rows joined side by side: column $k < 256$ of the join is column $k$ of the first. -/
theorem joined_lo (xs xd : (⟨S262144x256, .f32⟩ : BufTy).Contents (Elt Ideal)) (e : Fin 262144) (k : Fin 256) :
    concatenate S262144x512 1 [⟨S262144x256, xs⟩, ⟨S262144x256, xd⟩] concatenates_S262144x256_S262144x256_S262144x512_d1 (ix2 e (lo k))
      = xs (ix2 e k) :=
  concatenate_pair_apply_left (1 : Fin 2) xs xd concatenates_S262144x256_S262144x256_S262144x512_d1 (ix2 e (lo k)) rfl (ix2 e k)
    (fun b => by
      match b with
      | ⟨0, _⟩ => rfl
      | ⟨1, _⟩ => rfl)

/-- Column $256 + k$ of the join is column $k$ of the second. -/
theorem joined_hi (xs xd : (⟨S262144x256, .f32⟩ : BufTy).Contents (Elt Ideal)) (e : Fin 262144) (k : Fin 256) :
    concatenate S262144x512 1 [⟨S262144x256, xs⟩, ⟨S262144x256, xd⟩] concatenates_S262144x256_S262144x256_S262144x512_d1 (ix2 e (hi k))
      = xd (ix2 e k) :=
  concatenate_pair_apply_right (1 : Fin 2) xs xd concatenates_S262144x256_S262144x256_S262144x512_d1 (ix2 e (hi k)) rfl rfl (ix2 e k)
    (fun b hb => by
      match b with
      | ⟨0, _⟩ => rfl
      | ⟨1, _⟩ => exact absurd rfl hb)
    (by show k.val + 256 = 256 + k.val; omega)

/-! ## The positive edges -/

/-- The concatenated row times $W_1$ at $(e, j)$: the 512-term sum, split at 256, reads the source row against the upper
    half of $W_1$ and the destination row against the lower half. -/
theorem pos_product (x0 x1 : (⟨S100000x256, .f32⟩ : BufTy).Contents (Elt Ideal)) (x2 : (⟨S512x256, .f32⟩ : BufTy).Contents (Elt Ideal))
    (x6 : (⟨S2x262144, .i32⟩ : BufTy).Contents (Elt Ideal)) (e : Fin 262144) (j : Fin 256) :
    val_main_v23 (F := Ideal) x0 x1 x2 x6 (ix2 e j)
      = (∑ k : Fin 256, val_main_v14 (F := Ideal) x0 x6 (ix2 e k) * x2 (ix2 (lo k) j))
        + ∑ k : Fin 256, val_main_v21 (F := Ideal) x1 x6 (ix2 e k) * x2 (ix2 (hi k) j) := by
  rw [val_main_v23_apply, sum_halves]
  refine congrArg₂ (· + ·) (Finset.sum_congr rfl fun k _ => ?_) (Finset.sum_congr rfl fun k _ => ?_)
  · have e1 : lidx_main_v23 (ix2 e j) (lo k) = ix2 e (lo k) := funext fun a => Fin.ext (by
      match a with
      | ⟨0, _⟩ => rfl
      | ⟨1, _⟩ => rfl)
    have e2 : ridx_main_v23 (ix2 e j) (lo k) = ix2 (lo k) j := funext fun a => Fin.ext (by
      match a with
      | ⟨0, _⟩ => rfl
      | ⟨1, _⟩ => rfl)
    rw [e1, e2]
    unfold val_main_v22
    rw [joined_lo]
  · have e1 : lidx_main_v23 (ix2 e j) (hi k) = ix2 e (hi k) := funext fun a => Fin.ext (by
      match a with
      | ⟨0, _⟩ => rfl
      | ⟨1, _⟩ => rfl)
    have e2 : ridx_main_v23 (ix2 e j) (hi k) = ix2 (hi k) j := funext fun a => Fin.ext (by
      match a with
      | ⟨0, _⟩ => rfl
      | ⟨1, _⟩ => rfl)
    rw [e1, e2]
    unfold val_main_v22
    rw [joined_hi]

/-- The first layer's bias, laid as a row and repeated down the rows, at $(e, j)$ is $b_1[j]$. -/
theorem pos_bias1 (x3 : (⟨S256, .f32⟩ : BufTy).Contents (Elt Ideal)) (e : Fin 262144) (j : Fin 256) :
    val_main_v25 (F := Ideal) x3 (ix2 e j) = x3 (ix1 j) := by
  rw [val_main_v25_apply, val_main_v24_apply]
  exact congrArg x3 (funext fun a => Fin.ext (by
    match a with
    | ⟨0, _⟩ => rfl))

/-- The rectified hidden layer at $(e, j)$. -/
theorem pos_hidden (x0 x1 : (⟨S100000x256, .f32⟩ : BufTy).Contents (Elt Ideal)) (x2 : (⟨S512x256, .f32⟩ : BufTy).Contents (Elt Ideal))
    (x3 : (⟨S256, .f32⟩ : BufTy).Contents (Elt Ideal)) (x6 : (⟨S2x262144, .i32⟩ : BufTy).Contents (Elt Ideal)) (e : Fin 262144) (j : Fin 256) :
    val_main_v27 (F := Ideal) x0 x1 x2 x3 x6 (ix2 e j)
      = max ((∑ k : Fin 256, val_main_v14 (F := Ideal) x0 x6 (ix2 e k) * x2 (ix2 (lo k) j))
          + (∑ k : Fin 256, val_main_v21 (F := Ideal) x1 x6 (ix2 e k) * x2 (ix2 (hi k) j)) + x3 (ix1 j)) zeroWord := by
  rw [val_main_v27_apply, val_main_v26_apply, pos_product, pos_bias1, val_main_call0_v0_apply, val_main_call0_cst_apply]
  rfl

/-- The second layer at $(e, 0)$: the sum over the 256 hidden units against the column $W_2$. -/
theorem pos_layer2 (x0 x1 : (⟨S100000x256, .f32⟩ : BufTy).Contents (Elt Ideal)) (x2 : (⟨S512x256, .f32⟩ : BufTy).Contents (Elt Ideal))
    (x3 : (⟨S256, .f32⟩ : BufTy).Contents (Elt Ideal)) (x4 : (⟨S256x1, .f32⟩ : BufTy).Contents (Elt Ideal))
    (x6 : (⟨S2x262144, .i32⟩ : BufTy).Contents (Elt Ideal)) (e : Fin 262144) :
    val_main_v28 (F := Ideal) x0 x1 x2 x3 x4 x6 (ix2 e (0 : Fin 1))
      = ∑ j : Fin 256, max ((∑ k : Fin 256, val_main_v14 (F := Ideal) x0 x6 (ix2 e k) * x2 (ix2 (lo k) j))
          + (∑ k : Fin 256, val_main_v21 (F := Ideal) x1 x6 (ix2 e k) * x2 (ix2 (hi k) j)) + x3 (ix1 j)) zeroWord
          * x4 (ix2 j (0 : Fin 1)) := by
  rw [val_main_v28_apply]
  refine Finset.sum_congr rfl fun j _ => ?_
  have e1 : lidx_main_v28 (ix2 e (0 : Fin 1)) j = ix2 e j := funext fun a => Fin.ext (by
    match a with
    | ⟨0, _⟩ => rfl
    | ⟨1, _⟩ => rfl)
  have e2 : ridx_main_v28 (ix2 e (0 : Fin 1)) j = ix2 j (0 : Fin 1) := funext fun a => Fin.ext (by
    match a with
    | ⟨0, _⟩ => rfl
    | ⟨1, _⟩ => rfl)
  rw [e1, e2, pos_hidden]

/-- The second layer's bias, repeated down the column, is $b_2[0]$ at every row. -/
theorem pos_bias2 (x5 : (⟨S1, .f32⟩ : BufTy).Contents (Elt Ideal)) (e : Fin 262144) :
    val_main_v30 (F := Ideal) x5 (ix2 e (0 : Fin 1)) = x5 (ix1 (0 : Fin 1)) := by
  rw [val_main_v30_apply, val_main_v29_apply]
  exact congrArg x5 (funext fun a => Fin.ext (by
    match a with
    | ⟨0, _⟩ => rfl))

/-- The reference's positive result is the edge score of its gathered rows. -/
theorem pos_eq (x0 x1 : (⟨S100000x256, .f32⟩ : BufTy).Contents (Elt Ideal)) (x2 : (⟨S512x256, .f32⟩ : BufTy).Contents (Elt Ideal))
    (x3 : (⟨S256, .f32⟩ : BufTy).Contents (Elt Ideal)) (x4 : (⟨S256x1, .f32⟩ : BufTy).Contents (Elt Ideal))
    (x5 : (⟨S1, .f32⟩ : BufTy).Contents (Elt Ideal)) (x6 : (⟨S2x262144, .i32⟩ : BufTy).Contents (Elt Ideal)) :
    val_main_v32 (F := Ideal) x0 x1 x2 x3 x4 x5 x6
      = edgeScore (val_main_v14 (F := Ideal) x0 x6) (val_main_v21 (F := Ideal) x1 x6) x2 x3 x4 x5 := by
  funext i
  obtain ⟨e, rfl⟩ : ∃ e : Fin 262144, i = ix1 e := ⟨i 0, eq_ix1 i⟩
  have e0 : idx_main_v32 (ix1 e) = ix2 e (0 : Fin 1) := funext fun a => Fin.ext (by
    match a with
    | ⟨0, _⟩ => exact Nat.div_one _
    | ⟨1, _⟩ => rfl)
  rw [val_main_v32_apply, e0, val_main_v31_apply, pos_layer2, pos_bias2]
  rfl

/-! ## The negative edges -/

/-- The concatenated row times $W_1$ at $(e, j)$: the 512-term sum, split at 256, reads the source row against the upper
    half of $W_1$ and the destination row against the lower half. -/
theorem neg_product (x0 x1 : (⟨S100000x256, .f32⟩ : BufTy).Contents (Elt Ideal)) (x2 : (⟨S512x256, .f32⟩ : BufTy).Contents (Elt Ideal))
    (x7 : (⟨S2x262144, .i32⟩ : BufTy).Contents (Elt Ideal)) (e : Fin 262144) (j : Fin 256) :
    val_main_v48 (F := Ideal) x0 x1 x2 x7 (ix2 e j)
      = (∑ k : Fin 256, val_main_v39 (F := Ideal) x0 x7 (ix2 e k) * x2 (ix2 (lo k) j))
        + ∑ k : Fin 256, val_main_v46 (F := Ideal) x1 x7 (ix2 e k) * x2 (ix2 (hi k) j) := by
  rw [val_main_v48_apply, sum_halves]
  refine congrArg₂ (· + ·) (Finset.sum_congr rfl fun k _ => ?_) (Finset.sum_congr rfl fun k _ => ?_)
  · have e1 : lidx_main_v48 (ix2 e j) (lo k) = ix2 e (lo k) := funext fun a => Fin.ext (by
      match a with
      | ⟨0, _⟩ => rfl
      | ⟨1, _⟩ => rfl)
    have e2 : ridx_main_v48 (ix2 e j) (lo k) = ix2 (lo k) j := funext fun a => Fin.ext (by
      match a with
      | ⟨0, _⟩ => rfl
      | ⟨1, _⟩ => rfl)
    rw [e1, e2]
    unfold val_main_v47
    rw [joined_lo]
  · have e1 : lidx_main_v48 (ix2 e j) (hi k) = ix2 e (hi k) := funext fun a => Fin.ext (by
      match a with
      | ⟨0, _⟩ => rfl
      | ⟨1, _⟩ => rfl)
    have e2 : ridx_main_v48 (ix2 e j) (hi k) = ix2 (hi k) j := funext fun a => Fin.ext (by
      match a with
      | ⟨0, _⟩ => rfl
      | ⟨1, _⟩ => rfl)
    rw [e1, e2]
    unfold val_main_v47
    rw [joined_hi]

/-- The first layer's bias, laid as a row and repeated down the rows, at $(e, j)$ is $b_1[j]$. -/
theorem neg_bias1 (x3 : (⟨S256, .f32⟩ : BufTy).Contents (Elt Ideal)) (e : Fin 262144) (j : Fin 256) :
    val_main_v50 (F := Ideal) x3 (ix2 e j) = x3 (ix1 j) := by
  rw [val_main_v50_apply, val_main_v49_apply]
  exact congrArg x3 (funext fun a => Fin.ext (by
    match a with
    | ⟨0, _⟩ => rfl))

/-- The rectified hidden layer at $(e, j)$. -/
theorem neg_hidden (x0 x1 : (⟨S100000x256, .f32⟩ : BufTy).Contents (Elt Ideal)) (x2 : (⟨S512x256, .f32⟩ : BufTy).Contents (Elt Ideal))
    (x3 : (⟨S256, .f32⟩ : BufTy).Contents (Elt Ideal)) (x7 : (⟨S2x262144, .i32⟩ : BufTy).Contents (Elt Ideal)) (e : Fin 262144) (j : Fin 256) :
    val_main_v52 (F := Ideal) x0 x1 x2 x3 x7 (ix2 e j)
      = max ((∑ k : Fin 256, val_main_v39 (F := Ideal) x0 x7 (ix2 e k) * x2 (ix2 (lo k) j))
          + (∑ k : Fin 256, val_main_v46 (F := Ideal) x1 x7 (ix2 e k) * x2 (ix2 (hi k) j)) + x3 (ix1 j)) zeroWord := by
  rw [val_main_v52_apply, val_main_v51_apply, neg_product, neg_bias1, val_main_call1_v0_apply, val_main_call1_cst_apply]
  rfl

/-- The second layer at $(e, 0)$: the sum over the 256 hidden units against the column $W_2$. -/
theorem neg_layer2 (x0 x1 : (⟨S100000x256, .f32⟩ : BufTy).Contents (Elt Ideal)) (x2 : (⟨S512x256, .f32⟩ : BufTy).Contents (Elt Ideal))
    (x3 : (⟨S256, .f32⟩ : BufTy).Contents (Elt Ideal)) (x4 : (⟨S256x1, .f32⟩ : BufTy).Contents (Elt Ideal))
    (x7 : (⟨S2x262144, .i32⟩ : BufTy).Contents (Elt Ideal)) (e : Fin 262144) :
    val_main_v53 (F := Ideal) x0 x1 x2 x3 x4 x7 (ix2 e (0 : Fin 1))
      = ∑ j : Fin 256, max ((∑ k : Fin 256, val_main_v39 (F := Ideal) x0 x7 (ix2 e k) * x2 (ix2 (lo k) j))
          + (∑ k : Fin 256, val_main_v46 (F := Ideal) x1 x7 (ix2 e k) * x2 (ix2 (hi k) j)) + x3 (ix1 j)) zeroWord
          * x4 (ix2 j (0 : Fin 1)) := by
  rw [val_main_v53_apply]
  refine Finset.sum_congr rfl fun j _ => ?_
  have e1 : lidx_main_v53 (ix2 e (0 : Fin 1)) j = ix2 e j := funext fun a => Fin.ext (by
    match a with
    | ⟨0, _⟩ => rfl
    | ⟨1, _⟩ => rfl)
  have e2 : ridx_main_v53 (ix2 e (0 : Fin 1)) j = ix2 j (0 : Fin 1) := funext fun a => Fin.ext (by
    match a with
    | ⟨0, _⟩ => rfl
    | ⟨1, _⟩ => rfl)
  rw [e1, e2, neg_hidden]

/-- The second layer's bias, repeated down the column, is $b_2[0]$ at every row. -/
theorem neg_bias2 (x5 : (⟨S1, .f32⟩ : BufTy).Contents (Elt Ideal)) (e : Fin 262144) :
    val_main_v55 (F := Ideal) x5 (ix2 e (0 : Fin 1)) = x5 (ix1 (0 : Fin 1)) := by
  rw [val_main_v55_apply, val_main_v54_apply]
  exact congrArg x5 (funext fun a => Fin.ext (by
    match a with
    | ⟨0, _⟩ => rfl))

/-- The reference's negative result is the edge score of its gathered rows. -/
theorem neg_eq (x0 x1 : (⟨S100000x256, .f32⟩ : BufTy).Contents (Elt Ideal)) (x2 : (⟨S512x256, .f32⟩ : BufTy).Contents (Elt Ideal))
    (x3 : (⟨S256, .f32⟩ : BufTy).Contents (Elt Ideal)) (x4 : (⟨S256x1, .f32⟩ : BufTy).Contents (Elt Ideal))
    (x5 : (⟨S1, .f32⟩ : BufTy).Contents (Elt Ideal)) (x7 : (⟨S2x262144, .i32⟩ : BufTy).Contents (Elt Ideal)) :
    val_main_v57 (F := Ideal) x0 x1 x2 x3 x4 x5 x7
      = edgeScore (val_main_v39 (F := Ideal) x0 x7) (val_main_v46 (F := Ideal) x1 x7) x2 x3 x4 x5 := by
  funext i
  obtain ⟨e, rfl⟩ : ∃ e : Fin 262144, i = ix1 e := ⟨i 0, eq_ix1 i⟩
  have e0 : idx_main_v57 (ix1 e) = ix2 e (0 : Fin 1) := funext fun a => Fin.ext (by
    match a with
    | ⟨0, _⟩ => exact Nat.div_one _
    | ⟨1, _⟩ => rfl)
  rw [val_main_v57_apply, e0, val_main_v56_apply, neg_layer2, neg_bias2]
  rfl

end Cert.ReferenceIdeal.Scores

end
-- ==== Proof.Bridge.lean ====
/-
  The two programs meet.

  Both programs take the same rows of the node arrays: each slices the index array into its two rows, wraps negative
  indices by adding 100000, and gathers whole rows at those indices. The scorer's program first narrows the node arrays to
  the short float format, which changes no value. So the arrays of gathered rows are the same functions of the arguments,
  and with them each of the reference's results is the edge score the scorer's program computes.
-/
import proofs.«126227_j51041391345811_2_alg».proof.Proof.KernelResults
import proofs.«126227_j51041391345811_2_alg».proof.Proof.ReferenceScores

noncomputable section

namespace Cert.Bridge

open Idealize.ShloMosaic
open Cert.KernelIdeal.Results Cert.EdgeScore

/-- The reference's gathered source rows of the positive edges are the scorer's. -/
theorem src_pos (X : (⟨Cert.ReferenceIdeal.S100000x256, .f32⟩ : BufTy).Contents (Elt Ideal))
    (E : (⟨Cert.ReferenceIdeal.S2x262144, .i32⟩ : BufTy).Contents (Elt Ideal)) :
    Cert.ReferenceIdeal.Read.val_main_v14 (F := Ideal) X E = gatherRows X (indexRow0 E) := rfl
/-- … the destination rows of the positive edges, -/
theorem dst_pos (X : (⟨Cert.ReferenceIdeal.S100000x256, .f32⟩ : BufTy).Contents (Elt Ideal))
    (E : (⟨Cert.ReferenceIdeal.S2x262144, .i32⟩ : BufTy).Contents (Elt Ideal)) :
    Cert.ReferenceIdeal.Read.val_main_v21 (F := Ideal) X E = gatherRows X (indexRow1 E) := rfl
/-- … the source rows of the negative edges, -/
theorem src_neg (X : (⟨Cert.ReferenceIdeal.S100000x256, .f32⟩ : BufTy).Contents (Elt Ideal))
    (E : (⟨Cert.ReferenceIdeal.S2x262144, .i32⟩ : BufTy).Contents (Elt Ideal)) :
    Cert.ReferenceIdeal.Read.val_main_v39 (F := Ideal) X E = gatherRows X (indexRow0 E) := rfl
/-- … and the destination rows of the negative edges. -/
theorem dst_neg (X : (⟨Cert.ReferenceIdeal.S100000x256, .f32⟩ : BufTy).Contents (Elt Ideal))
    (E : (⟨Cert.ReferenceIdeal.S2x262144, .i32⟩ : BufTy).Contents (Elt Ideal)) :
    Cert.ReferenceIdeal.Read.val_main_v46 (F := Ideal) X E = gatherRows X (indexRow1 E) := rfl

/-- The reference's first result is the scorer's positive scores of the same arguments. -/
theorem pos_agree (x0 x1 : (⟨Cert.ReferenceIdeal.S100000x256, .f32⟩ : BufTy).Contents (Elt Ideal))
    (x2 : (⟨Cert.ReferenceIdeal.S512x256, .f32⟩ : BufTy).Contents (Elt Ideal)) (x3 : (⟨Cert.ReferenceIdeal.S256, .f32⟩ : BufTy).Contents (Elt Ideal))
    (x4 : (⟨Cert.ReferenceIdeal.S256x1, .f32⟩ : BufTy).Contents (Elt Ideal)) (x5 : (⟨Cert.ReferenceIdeal.S1, .f32⟩ : BufTy).Contents (Elt Ideal))
    (x6 : (⟨Cert.ReferenceIdeal.S2x262144, .i32⟩ : BufTy).Contents (Elt Ideal)) :
    Cert.ReferenceIdeal.Read.val_main_v32 (F := Ideal) x0 x1 x2 x3 x4 x5 x6
      = scoresOf (gatherRows x0 (indexRow0 x6)) (gatherRows x1 (indexRow1 x6)) x2 x3 x4 x5 := by
  rw [Cert.ReferenceIdeal.Scores.pos_eq, src_pos, dst_pos]
  rfl

/-- The reference's second result is the scorer's negative scores of the same arguments. -/
theorem neg_agree (x0 x1 : (⟨Cert.ReferenceIdeal.S100000x256, .f32⟩ : BufTy).Contents (Elt Ideal))
    (x2 : (⟨Cert.ReferenceIdeal.S512x256, .f32⟩ : BufTy).Contents (Elt Ideal)) (x3 : (⟨Cert.ReferenceIdeal.S256, .f32⟩ : BufTy).Contents (Elt Ideal))
    (x4 : (⟨Cert.ReferenceIdeal.S256x1, .f32⟩ : BufTy).Contents (Elt Ideal)) (x5 : (⟨Cert.ReferenceIdeal.S1, .f32⟩ : BufTy).Contents (Elt Ideal))
    (x7 : (⟨Cert.ReferenceIdeal.S2x262144, .i32⟩ : BufTy).Contents (Elt Ideal)) :
    Cert.ReferenceIdeal.Read.val_main_v57 (F := Ideal) x0 x1 x2 x3 x4 x5 x7
      = scoresOf (gatherRows x0 (indexRow0 x7)) (gatherRows x1 (indexRow1 x7)) x2 x3 x4 x5 := by
  rw [Cert.ReferenceIdeal.Scores.neg_eq, src_neg, dst_neg]
  rfl

end Cert.Bridge

end
-- ==== Proof.lean ====
/-
  The claim: an edge scorer written as two tiled calls against its plain reference.

  Both programs score 262144 positive and 262144 negative edges of a graph. For each edge they take one row of the source
  node array and one row of the destination node array (256 numbers each, at indices read from an index array, a negative
  index counting from the end), and compute

    score = Σ_j max( Σ_k xs[k]·W1[k, j] + Σ_k xd[k]·W1[256 + k, j] + b1[j], 0 ) · W2[j, 0] + b2[0].

  The reference joins the two rows into one of 512 and multiplies by $W_1$ once; the scorer multiplies each row by its half
  of $W_1$ and adds, 8192 edges per grid point, and takes the second layer as a lane sum against $W_2$ laid as a row. Over
  the extended reals the two agree entry by entry, because a sum over 512 indices is the sum over its first 256 plus the sum
  over its last 256; nothing is cancelled or distributed, so the inputs' finiteness is never used. The narrowing of the
  node rows and of $W_1$ to a shorter float format, which the scorer does on the way, changes no value here.

  The three frames are the generated ones (the reference's is its generated run with the results dropped); nothing was
  rewritten on the way to the idealized scorer, so that conjunct is trivial; the value claim puts the scorer's run (each
  result array read back through both calls and the host operations around them) beside the reference's run.
-/
import proofs.«126227_j51041391345811_2_alg».proof.Defs
import proofs.«126227_j51041391345811_2_alg».proof.Proof.Gen.Kernel
import proofs.«126227_j51041391345811_2_alg».proof.Proof.Gen.Kernel.Skeleton
import proofs.«126227_j51041391345811_2_alg».proof.Proof.Gen.Kernel.Launch
import proofs.«126227_j51041391345811_2_alg».proof.Proof.Gen.Kernel.Points
import proofs.«126227_j51041391345811_2_alg».proof.Proof.Gen.Kernel.Frame
import proofs.«126227_j51041391345811_2_alg».proof.Proof.Gen.KernelIdeal
import proofs.«126227_j51041391345811_2_alg».proof.Proof.Gen.KernelIdeal.Skeleton
import proofs.«126227_j51041391345811_2_alg».proof.Proof.Gen.KernelIdeal.Launch
import proofs.«126227_j51041391345811_2_alg».proof.Proof.Gen.KernelIdeal.Points
import proofs.«126227_j51041391345811_2_alg».proof.Proof.Gen.KernelIdeal.Frame
import proofs.«126227_j51041391345811_2_alg».proof.Proof.Gen.ReferenceIdeal
import proofs.«126227_j51041391345811_2_alg».proof.Proof.Gen.ReferenceIdeal.Run
import proofs.«126227_j51041391345811_2_alg».proof.Proof.Gen.ReferenceIdeal.Read
import proofs.«126227_j51041391345811_2_alg».proof.Proof.Gen.Pre_finite_inputs
import proofs.«126227_j51041391345811_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- Run from memories that agree on the eight arguments, the scorer ends with the positive and the negative edges' scores
    as functions of its arguments, and the reference ends with the same functions of the same arguments. -/
theorem algebraic : Cert.algebraic_KernelIdeal_ReferenceIdeal := by
  intro m ρ m' ρ' _ hagree
  refine ⟨fun c => Cert.KernelIdeal.Results.posScores m c, fun c => Cert.KernelIdeal.Results.negScores m c,
    Cert.KernelIdeal.Results.run m ρ, ?_⟩
  refine (θ_run Cert.ReferenceIdeal.defs _ _).mono (fun _ h c => ?_) (Cert.ReferenceIdeal.Value.run (F := Ideal) m' ρ')
  obtain ⟨a0, a1, a2, a3, a4, a5, a6, a7⟩ := hagree c
  refine ⟨(h c).1.trans ?_, (h c).2.1.trans ?_, (h c).2.2⟩
  · rw [a0, a1, a2, a3, a4, a5, a6]
    exact (Cert.ReferenceIdeal.Read.val_main_v32_eq _ _ _ _ _ _ _).trans (Cert.Bridge.pos_agree _ _ _ _ _ _ _)
  · rw [a0, a1, a2, a3, a4, a5, a7]
    exact (Cert.ReferenceIdeal.Read.val_main_v57_eq _ _ _ _ _ _ _).trans (Cert.Bridge.neg_agree _ _ _ _ _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
